-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4x2048 : Shape := ⟨2, ![4, 2048]⟩
abbrev S4096x4096 : Shape := ⟨2, ![4096, 4096]⟩
abbrev S4096 : Shape := ⟨1, ![4096]⟩
abbrev S8x4096 : Shape := ⟨2, ![8, 4096]⟩
abbrev S4096x8 : Shape := ⟨2, ![4096, 8]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_
  bcast_S_S8x4096 : S_.BroadcastsInDim S8x4096 (![] : Fin 0 → Fin S8x4096.rank)
  reducesTo_S8x4096_S_d0_1 : S8x4096.ReducesTo [0, 1] S_
  bcast_S_S4096x8 : S_.BroadcastsInDim S4096x8 (![] : Fin 0 → Fin S4096x8.rank)
  reducesTo_S4096x8_S_d0_1 : S4096x8.ReducesTo [0, 1] S_

variable [Facts]

def fn_part1 {F : FTy → Type} [FloatOps F] (main_arg5 : FVec F S4096x8 .f32) (main_v13 : IVec S_ 1) (main_v16 : IVec S8x4096 1) : IVec S_ 1 :=
  let main_c_5 : IVec S_ 1 := constantI S_ 1 1#1
  let main_v17 : IVec S_ 1 := (fun x v => Host.reduce IntOp.andi x v reducesTo_S8x4096_S_d0_1 h_S_) main_v16 main_c_5
  let main_v18 : IVec S_ 1 := andi main_v13 main_v17
  let main_v19 : FVec F S4096x8 .f32 := Host.absf main_arg5
  let main_cst_6 : FVec F S_ .f32 := constant S_ .f32 0x7F800000#32
  let main_v20 : FVec F S4096x8 .f32 := broadcastInDim S4096x8 ![] bcast_S_S4096x8 main_cst_6
  let main_v21 : IVec S4096x8 1 := cmpf .olt main_v19 main_v20
  let main_c_7 : IVec S_ 1 := constantI S_ 1 1#1
  let main_v22 : IVec S_ 1 := (fun x v => Host.reduce IntOp.andi x v reducesTo_S4096x8_S_d0_1 h_S_) main_v21 main_c_7
  let main_v23 : IVec S_ 1 := andi main_v18 main_v22
  main_v23

def fn {F : FTy → Type} [FloatOps F] (main_arg0 : FVec F S4x2048x4096 .f32) (main_arg1 : IVec S4x2048 1) (main_arg2 : FVec F S4096x4096 .f32) (main_arg3 : FVec F S4096 .f32) (main_arg4 : FVec F S8x4096 .f32) (main_arg5 : FVec F S4096x8 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg2
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg3
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S8x4096 .f32 := Host.absf main_arg4
  let main_cst_4 : FVec F S_ .f32 := constant S_ .f32 0x7F800000#32
  let main_v15 : FVec F S8x4096 .f32 := broadcastInDim S8x4096 ![] bcast_S_S8x4096 main_cst_4
  let main_v16 : IVec S8x4096 1 := cmpf .olt main_v14 main_v15
  fn_part1 (F := F) main_arg5 main_v13 main_v16
-- ==== Kernel.lean ====
abbrev S4x2048x4096 : Shape := ⟨3, ![4, 2048, 4096]⟩
abbrev S4x2048 : Shape := ⟨2, ![4, 2048]⟩
abbrev S4096x4096 : Shape := ⟨2, ![4096, 4096]⟩
abbrev S4096 : Shape := ⟨1, ![4096]⟩
abbrev S8x4096 : Shape := ⟨2, ![8, 4096]⟩
abbrev S4096x8 : Shape := ⟨2, ![4096, 8]⟩
abbrev S8192x4096 : Shape := ⟨2, ![8192, 4096]⟩
abbrev S8192x1 : Shape := ⟨2, ![8192, 1]⟩
abbrev S1x4096 : Shape := ⟨2, ![1, 4096]⟩
abbrev S512x1024 : Shape := ⟨2, ![512, 1024]⟩
abbrev S1024x1024 : Shape := ⟨2, ![1024, 1024]⟩
abbrev S8x1024 : Shape := ⟨2, ![8, 1024]⟩
abbrev S1024x8 : Shape := ⟨2, ![1024, 8]⟩
abbrev S1x1024 : Shape := ⟨2, ![1, 1024]⟩
abbrev S512x1 : Shape := ⟨2, ![512, 1]⟩
abbrev S512x8 : Shape := ⟨2, ![512, 8]⟩

abbrev nBuf : Space → Nat
  | .hbm => 12
  | .vmem => 16
  | .smem => 0
  | _ => 0

abbrev bufTy : (tb : Table) → Fin (tcTables nBuf tb) → BufTy
  | .hbm, ⟨0, _⟩ => ⟨S4x2048x4096, .f32⟩
  | .hbm, ⟨1, _⟩ => ⟨S4x2048, .i1⟩
  | .hbm, ⟨2, _⟩ => ⟨S4096x4096, .f32⟩
  | .hbm, ⟨3, _⟩ => ⟨S4096, .f32⟩
  | .hbm, ⟨4, _⟩ => ⟨S8x4096, .f32⟩
  | .hbm, ⟨5, _⟩ => ⟨S4096x8, .f32⟩
  | .hbm, ⟨6, _⟩ => ⟨S8192x4096, .f32⟩
  | .hbm, ⟨7, _⟩ => ⟨S8192x1, .i1⟩
  | .hbm, ⟨8, _⟩ => ⟨S8192x1, .f32⟩
  | .hbm, ⟨9, _⟩ => ⟨S1x4096, .f32⟩
  | .hbm, ⟨10, _⟩ => ⟨S8192x4096, .f32⟩
  | .hbm, ⟨11, _⟩ => ⟨S4x2048x4096, .f32⟩
  | .local _ .vmem, ⟨0, _⟩ => ⟨S512x1024, .f32⟩
  | .local _ .vmem, ⟨1, _⟩ => ⟨S512x1024, .f32⟩
  | .local _ .vmem, ⟨2, _⟩ => ⟨S1024x1024, .f32⟩
  | .local _ .vmem, ⟨3, _⟩ => ⟨S1024x1024, .f32⟩
  | .local _ .vmem, ⟨4, _⟩ => ⟨S8x1024, .f32⟩
  | .local _ .vmem, ⟨5, _⟩ => ⟨S8x1024, .f32⟩
  | .local _ .vmem, ⟨6, _⟩ => ⟨S1024x8, .f32⟩
  | .local _ .vmem, ⟨7, _⟩ => ⟨S1024x8, .f32⟩
  | .local _ .vmem, ⟨8, _⟩ => ⟨S1x1024, .f32⟩
  | .local _ .vmem, ⟨9, _⟩ => ⟨S1x1024, .f32⟩
  | .local _ .vmem, ⟨10, _⟩ => ⟨S512x1, .f32⟩
  | .local _ .vmem, ⟨11, _⟩ => ⟨S512x1, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x8, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![16, 4, 4], ![false, false, false]⟩

def k0_cond2 (i : grid0.Coords) : BitVec 1 :=
  let arg2 : BitVec 32 := BitVec.ofNat 32 (i 2).val
  let c3_i32 : BitVec 32 := 3#32
  let v22 : BitVec 1 := Scalar.cmpi .eq arg2 c3_i32
  let v23 : BitVec 32 := Scalar.extui v22
  let c0_i32_15 : BitVec 32 := 0#32
  let v24 : BitVec 1 := Scalar.cmpi .ne v23 c0_i32_15
  v24

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S1024x8 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

class Facts₀ : Prop where
  shapeCasts_S4x2048x4096_S8192x4096 : S4x2048x4096.ShapeCasts S8192x4096
  shapeCasts_S4x2048_S8192x1 : S4x2048.ShapeCasts S8192x1
  shapeCasts_S4096_S1x4096 : S4096.ShapeCasts S1x4096
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S512x8_S512x8_0_0 : ∀ a, (![0, 0] : Fin 2 → Nat) a + S512x8.size a ≤ S512x8.size a
  h_S512x8 : 0 < S512x8.numel
  shapeCasts_S512x8_S512x8 : S512x8.ShapeCasts S512x8
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  inb_S8x1024_S8x1024_0_0 : ∀ a, (![0, 0] : Fin 2 → Nat) a + S8x1024.size a ≤ S8x1024.size a
  h_S8x1024 : 0 < S8x1024.numel
  inb_S1024x8_S1024x8_0_0 : ∀ a, (![0, 0] : Fin 2 → Nat) a + S1024x8.size a ≤ S1024x8.size a
  h_S1024x8 : 0 < S1024x8.numel
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  broadcasts_S512x1_S512x1024 : S512x1.Broadcasts S512x1024
  shapeCasts_S8192x4096_S4x2048x4096 : S8192x4096.ShapeCasts S4x2048x4096
  dot_S512x1024_S1024x1024_S512x1024_1_1_0_0_n_n_wf : DotDims.WF S512x1024 S1024x1024 S512x1024 [1] [1] [0] [0] [] []
  dot_S512x1024_S8x1024_S512x8_1_1_0_0_n_n_wf : DotDims.WF S512x1024 S8x1024 S512x8 [1] [1] [0] [0] [] []
  dot_S512x8_S1024x8_S512x1024_1_1_0_0_n_n_wf : DotDims.WF S512x8 S1024x8 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x4096.size a
  hwx0_0 : ∀ i : grid0.Coords, EltTy.bits .f32 = 32 ∨ (Rect.block (s := S8192x4096) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .f32 = 32 ∨ (Rect.block (s := S4096x4096) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x1024.size a ≤ S8x4096.size a
  hwx0_2 : ∀ i : grid0.Coords, EltTy.bits .f32 = 32 ∨ (Rect.block (s := S8x4096) S8x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x8.size a ≤ S4096x8.size a
  hwx0_3 : ∀ i : grid0.Coords, EltTy.bits .f32 = 32 ∨ (Rect.block (s := S4096x8) S1024x8.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x4096.size a
  hwx0_4 : ∀ i : grid0.Coords, EltTy.bits .f32 = 32 ∨ (Rect.block (s := S1x4096) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1.size a ≤ S8192x1.size a
  hwx0_5 : ∀ i : grid0.Coords, EltTy.bits .f32 = 32 ∨ (Rect.block (s := S8192x1) S512x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x1024.size a ≤ S8192x4096.size a
  hwx0_6 : ∀ i : grid0.Coords, EltTy.bits .f32 = 32 ∨ (Rect.block (s := S8192x4096) S512x1024.size (cc0_transform_6 i) (hinb0_6 i)).WholeWords (EltTy.packing .f32)

variable [Facts₀]

def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf
def dot_S512x1024_S8x1024_S512x8_1_1_0_0_n_n : DotDims S512x1024 S8x1024 S512x8 where
  lhsContracting := [1]
  rhsContracting := [1]
  lhsNonContracting := [0]
  rhsNonContracting := [0]
  lhsBatch := []
  rhsBatch := []
  wf := dot_S512x1024_S8x1024_S512x8_1_1_0_0_n_n_wf
def dot_S512x8_S1024x8_S512x1024_1_1_0_0_n_n : DotDims S512x8 S1024x8 S512x1024 where
  lhsContracting := [1]
  rhsContracting := [1]
  lhsNonContracting := [0]
  rhsNonContracting := [0]
  lhsBatch := []
  rhsBatch := []
  wf := dot_S512x8_S1024x8_S512x1024_1_1_0_0_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S8x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S1024x8.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2) S512x1.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v4) S512x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4x2048 : Shape := ⟨2, ![4, 2048]⟩
abbrev S4096x4096 : Shape := ⟨2, ![4096, 4096]⟩
abbrev S4096 : Shape := ⟨1, ![4096]⟩
abbrev S8x4096 : Shape := ⟨2, ![8, 4096]⟩
abbrev S4096x8 : Shape := ⟨2, ![4096, 8]⟩
abbrev S1x1x4096 : Shape := ⟨3, ![1, 1, 4096]⟩
abbrev S4x2048x8 : Shape := ⟨3, ![4, 2048, 8]⟩
abbrev S4x2048x1 : Shape := ⟨3, ![4, 2048, 1]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4x2048, .i1⟩
  | .hbm, ⟨2, _⟩ => ⟨S4096x4096, .f32⟩
  | .hbm, ⟨3, _⟩ => ⟨S4096, .f32⟩
  | .hbm, ⟨4, _⟩ => ⟨S8x4096, .f32⟩
  | .hbm, ⟨5, _⟩ => ⟨S4096x8, .f32⟩
  | .hbm, ⟨6, _⟩ => ⟨S4x2048x4096, .f32⟩
  | .hbm, ⟨7, _⟩ => ⟨S1x1x4096, .f32⟩
  | .hbm, ⟨8, _⟩ => ⟨S4x2048x4096, .f32⟩
  | .hbm, ⟨9, _⟩ => ⟨S4x2048x4096, .f32⟩
  | .hbm, ⟨10, _⟩ => ⟨S4x2048x8, .f32⟩
  | .hbm, ⟨11, _⟩ => ⟨S4x2048x4096, .f32⟩
  | .hbm, ⟨12, _⟩ => ⟨S4x2048x1, .i1⟩
  | .hbm, ⟨13, _⟩ => ⟨S_, .f32⟩
  | .hbm, ⟨14, _⟩ => ⟨S4x2048x4096, .f32⟩
  | .hbm, ⟨15, _⟩ => ⟨S4x2048x4096, .f32⟩
  | .hbm, ⟨16, _⟩ => ⟨S_, .f32⟩
  | .hbm, ⟨17, _⟩ => ⟨S4x2048x4096, .i1⟩
  | .hbm, ⟨18, _⟩ => ⟨S4x2048x4096, .f32⟩
  | .hbm, ⟨19, _⟩ => ⟨S4x2048x4096, .f32⟩
  | .hbm, ⟨20, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_call0_v0 : Ref sig .tc := ⟨.hbm, 17, rfl⟩
abbrev main_call0_v1 : Ref sig .tc := ⟨.hbm, 18, rfl⟩
abbrev main_v9 : Ref sig .tc := ⟨.hbm, 19, rfl⟩
abbrev main_v10 : Ref sig .tc := ⟨.hbm, 20, rfl⟩

abbrev nD : Nat := 1
abbrev τ : Topo := Topo.v7x

variable {F : FTy → Type} [FloatOps F]

class Facts₀ : Prop where
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  bcast_S4x2048_S4x2048x1_0_1 : S4x2048.BroadcastsInDim S4x2048x1 (![0, 1] : Fin 2 → Fin S4x2048x1.rank)
  bcast_S_S4x2048x4096 : S_.BroadcastsInDim S4x2048x4096 (![] : Fin 0 → Fin S4x2048x4096.rank)
  bcast_S4x2048x1_S4x2048x4096_0_1_2 : S4x2048x1.BroadcastsInDim S4x2048x4096 (![0, 1, 2] : Fin 3 → Fin S4x2048x4096.rank)
  dot_S4x2048x4096_S4096x4096_S4x2048x4096_2_1_01_0_n_n_wf : DotDims.WF S4x2048x4096 S4096x4096 S4x2048x4096 [2] [1] [0, 1] [0] [] []
  dot_S4x2048x4096_S8x4096_S4x2048x8_2_1_01_0_n_n_wf : DotDims.WF S4x2048x4096 S8x4096 S4x2048x8 [2] [1] [0, 1] [0] [] []
  dot_S4x2048x8_S4096x8_S4x2048x4096_2_1_01_0_n_n_wf : DotDims.WF S4x2048x8 S4096x8 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf
def dot_S4x2048x4096_S8x4096_S4x2048x8_2_1_01_0_n_n : DotDims S4x2048x4096 S8x4096 S4x2048x8 where
  lhsContracting := [2]
  rhsContracting := [1]
  lhsNonContracting := [0, 1]
  rhsNonContracting := [0]
  lhsBatch := []
  rhsBatch := []
  wf := dot_S4x2048x4096_S8x4096_S4x2048x8_2_1_01_0_n_n_wf
def dot_S4x2048x8_S4096x8_S4x2048x4096_2_1_01_0_n_n : DotDims S4x2048x8 S4096x8 S4x2048x4096 where
  lhsContracting := [2]
  rhsContracting := [1]
  lhsNonContracting := [0, 1]
  rhsNonContracting := [0]
  lhsBatch := []
  rhsBatch := []
  wf := dot_S4x2048x8_S4096x8_S4x2048x4096_2_1_01_0_n_n_wf

class Facts : Prop extends Facts₀ where

variable [Facts]
-- ==== Proof.Pieces.lean ====
/-
  What each control case of the body leaves in the buffers it writes, as the body's own computed values.

  The body keeps two running totals across the steps along the contraction axis: a [512, 1024] total for the dense
  product and a [512, 8] total for the low-rank product. On the first step (case A) it stores zeros into both, reads them
  back and adds the step's partial products; on a middle step (case B) it adds to what the previous step left; on the last
  step (case C) it does the same and then forms the output block from the two totals it has just stored. Each buffer's
  final contents are one store that covers the whole buffer, so they are that store's value; a load of a buffer that
  an earlier store of the same step covered reads that store's value.
-/
import proofs.«112531_j32607391711259_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Pieces

open Cert.KernelIdeal Cert.KernelIdeal.Gen

variable {F : FTy → Type} [FloatOps F]

/-- The zero offsets of a store or load of a whole buffer. -/
theorem hz : (![0, 0] : Fin 2 → Nat) = fun _ => 0 := funext fun a => by fin_cases a <;> rfl

/-! ## The first step: both totals start from the stored zeros -/

/-- After the first step the dense total is the step's update of the zero block. -/
theorem main_A (c : Dev nD) (i : grid0.Coords) (arg3 : Memref sig .tc .vmem S512x1024 .f32) (harg3 : arg3.IsWhole) (arg4 : Memref sig .tc .vmem S1024x1024 .f32) (harg4 : arg4.IsWhole) (arg5 : Memref sig .tc .vmem S8x1024 .f32) (harg5 : arg5.IsWhole) (arg6 : Memref sig .tc .vmem S1024x8 .f32) (harg6 : arg6.IsWhole) (arg7 : Memref sig .tc .vmem S1x1024 .f32) (harg7 : arg7.IsWhole) (arg8 : Memref sig .tc .vmem S512x1 .f32) (harg8 : arg8.IsWhole) (arg9 : Memref sig .tc .vmem S512x1024 .f32) (harg9 : arg9.IsWhole) (arg10 : Memref sig .tc .vmem S512x1024 .f32) (harg10 : arg10.IsWhole) (arg11 : Memref sig .tc .vmem S512x8 .f32) (harg11 : arg11.IsWhole) (hc0 : cond0_0 i) (hc1 : ¬cond0_1 i)
    (x0 : Vec F S512x1024 .f32) (x1 : Vec F S1024x1024 .f32) (x2 : Vec F S8x1024 .f32) (x3 : Vec F S1024x8 .f32) (x4 : Vec F S1x1024 .f32) (x5 : Vec F S512x1 .f32) :
    sout0_A_0 c i arg3 harg3 arg4 harg4 arg5 harg5 arg6 harg6 arg7 harg7 arg8 harg8 arg9 harg9 arg10 harg10 arg11 harg11 hc0 hc1 x0 x1 x2 x3 x4 x5 = k0_pay4 x0 x1 (k0_pay1 (F := F)) := by
  unfold sout0_A_0
  rw [View.read_writes_eq_canon _ _ _ (scover0_A_0 c i arg3 harg3 arg4 harg4 arg5 harg5 arg6 harg6 arg7 harg7 arg8 harg8 arg9 harg9 arg10 harg10 arg11 harg11 hc0 hc1 x0 x1 x2 x3 x4 x5)]
  unfold kernelRun0_A
  dsimp only
  sl_unfold_words
  rw [View.canon_cons_unit_zero (S := S512x1024) hz, View.readCov_unit_zero (S := S512x1024) _ hz]
  simp only [View.readAt_eq_ld, harg3.read_unread, harg4.read_unread, harg5.read_unread, harg6.read_unread, harg7.read_unread, harg8.read_unread, harg10.read_unread, harg11.read_unread, View.ld_unit_zero (S := S512x1024) hz, View.ld_unit_zero (S := S1024x1024) hz, View.ld_unit_zero (S := S8x1024) hz, View.ld_unit_zero (S := S1024x8) hz, View.ld_unit_zero (S := S1x1024) hz, View.ld_unit_zero (S := S512x1) hz, View.ld_unit_zero (S := S512x8) hz]

/-- After the first step the low-rank total is the step's update of the zero block. -/
theorem lora_A (c : Dev nD) (i : grid0.Coords) (arg3 : Memref sig .tc .vmem S512x1024 .f32) (harg3 : arg3.IsWhole) (arg4 : Memref sig .tc .vmem S1024x1024 .f32) (harg4 : arg4.IsWhole) (arg5 : Memref sig .tc .vmem S8x1024 .f32) (harg5 : arg5.IsWhole) (arg6 : Memref sig .tc .vmem S1024x8 .f32) (harg6 : arg6.IsWhole) (arg7 : Memref sig .tc .vmem S1x1024 .f32) (harg7 : arg7.IsWhole) (arg8 : Memref sig .tc .vmem S512x1 .f32) (harg8 : arg8.IsWhole) (arg9 : Memref sig .tc .vmem S512x1024 .f32) (harg9 : arg9.IsWhole) (arg10 : Memref sig .tc .vmem S512x1024 .f32) (harg10 : arg10.IsWhole) (arg11 : Memref sig .tc .vmem S512x8 .f32) (harg11 : arg11.IsWhole) (hc0 : cond0_0 i) (hc1 : ¬cond0_1 i)
    (x0 : Vec F S512x1024 .f32) (x1 : Vec F S1024x1024 .f32) (x2 : Vec F S8x1024 .f32) (x3 : Vec F S1024x8 .f32) (x4 : Vec F S1x1024 .f32) (x5 : Vec F S512x1 .f32) :
    sout0_A_1 c i arg3 harg3 arg4 harg4 arg5 harg5 arg6 harg6 arg7 harg7 arg8 harg8 arg9 harg9 arg10 harg10 arg11 harg11 hc0 hc1 x0 x1 x2 x3 x4 x5 = k0_pay5 x0 x2 (k0_pay2 (F := F)) := by
  unfold sout0_A_1
  rw [View.read_writes_eq_canon _ _ _ (scover0_A_1 c i arg3 harg3 arg4 harg4 arg5 harg5 arg6 harg6 arg7 harg7 arg8 harg8 arg9 harg9 arg10 harg10 arg11 harg11 hc0 hc1 x0 x1 x2 x3 x4 x5)]
  unfold kernelRun0_A
  dsimp only
  sl_unfold_words
  rw [View.canon_cons_unit_zero (S := S512x8) hz, View.readCov_unit_zero (S := S512x8) _ hz]
  simp only [View.readAt_eq_ld, harg3.read_unread, harg4.read_unread, harg5.read_unread, harg6.read_unread, harg7.read_unread, harg8.read_unread, harg10.read_unread, harg11.read_unread, View.ld_unit_zero (S := S512x1024) hz, View.ld_unit_zero (S := S1024x1024) hz, View.ld_unit_zero (S := S8x1024) hz, View.ld_unit_zero (S := S1024x8) hz, View.ld_unit_zero (S := S1x1024) hz, View.ld_unit_zero (S := S512x1) hz, View.ld_unit_zero (S := S512x8) hz]

/-! ## A middle step: each total is updated from what the previous step left -/

/-- The dense total after a middle step. -/
theorem main_B (c : Dev nD) (i : grid0.Coords) (arg3 : Memref sig .tc .vmem S512x1024 .f32) (harg3 : arg3.IsWhole) (arg4 : Memref sig .tc .vmem S1024x1024 .f32) (harg4 : arg4.IsWhole) (arg5 : Memref sig .tc .vmem S8x1024 .f32) (harg5 : arg5.IsWhole) (arg6 : Memref sig .tc .vmem S1024x8 .f32) (harg6 : arg6.IsWhole) (arg7 : Memref sig .tc .vmem S1x1024 .f32) (harg7 : arg7.IsWhole) (arg8 : Memref sig .tc .vmem S512x1 .f32) (harg8 : arg8.IsWhole) (arg9 : Memref sig .tc .vmem S512x1024 .f32) (harg9 : arg9.IsWhole) (arg10 : Memref sig .tc .vmem S512x1024 .f32) (harg10 : arg10.IsWhole) (arg11 : Memref sig .tc .vmem S512x8 .f32) (harg11 : arg11.IsWhole) (hc0 : ¬cond0_0 i) (hc1 : ¬cond0_1 i)
    (x0 : Vec F S512x1024 .f32) (x1 : Vec F S1024x1024 .f32) (x2 : Vec F S8x1024 .f32) (x3 : Vec F S1024x8 .f32) (x4 : Vec F S1x1024 .f32) (x5 : Vec F S512x1 .f32) (xs0 : Vec F S512x1024 .f32) (xs1 : Vec F S512x8 .f32) :
    sout0_B_0 c i arg3 harg3 arg4 harg4 arg5 harg5 arg6 harg6 arg7 harg7 arg8 harg8 arg9 harg9 arg10 harg10 arg11 harg11 hc0 hc1 x0 x1 x2 x3 x4 x5 xs0 xs1 = k0_pay4 x0 x1 xs0 := by
  unfold sout0_B_0
  rw [View.read_writes_eq_canon _ _ _ (scover0_B_0 c i arg3 harg3 arg4 harg4 arg5 harg5 arg6 harg6 arg7 harg7 arg8 harg8 arg9 harg9 arg10 harg10 arg11 harg11 hc0 hc1 x0 x1 x2 x3 x4 x5 xs0 xs1)]
  unfold kernelRun0_B
  dsimp only
  rw [View.canon_unit_zero hz]
  simp only [View.readAt_eq_ld, harg3.read_unread, harg4.read_unread, harg5.read_unread, harg6.read_unread, harg7.read_unread, harg8.read_unread, harg10.read_unread, harg11.read_unread, View.ld_unit_zero (S := S512x1024) hz, View.ld_unit_zero (S := S1024x1024) hz, View.ld_unit_zero (S := S8x1024) hz, View.ld_unit_zero (S := S1024x8) hz, View.ld_unit_zero (S := S1x1024) hz, View.ld_unit_zero (S := S512x1) hz, View.ld_unit_zero (S := S512x8) hz]

/-- The low-rank total after a middle step. -/
theorem lora_B (c : Dev nD) (i : grid0.Coords) (arg3 : Memref sig .tc .vmem S512x1024 .f32) (harg3 : arg3.IsWhole) (arg4 : Memref sig .tc .vmem S1024x1024 .f32) (harg4 : arg4.IsWhole) (arg5 : Memref sig .tc .vmem S8x1024 .f32) (harg5 : arg5.IsWhole) (arg6 : Memref sig .tc .vmem S1024x8 .f32) (harg6 : arg6.IsWhole) (arg7 : Memref sig .tc .vmem S1x1024 .f32) (harg7 : arg7.IsWhole) (arg8 : Memref sig .tc .vmem S512x1 .f32) (harg8 : arg8.IsWhole) (arg9 : Memref sig .tc .vmem S512x1024 .f32) (harg9 : arg9.IsWhole) (arg10 : Memref sig .tc .vmem S512x1024 .f32) (harg10 : arg10.IsWhole) (arg11 : Memref sig .tc .vmem S512x8 .f32) (harg11 : arg11.IsWhole) (hc0 : ¬cond0_0 i) (hc1 : ¬cond0_1 i)
    (x0 : Vec F S512x1024 .f32) (x1 : Vec F S1024x1024 .f32) (x2 : Vec F S8x1024 .f32) (x3 : Vec F S1024x8 .f32) (x4 : Vec F S1x1024 .f32) (x5 : Vec F S512x1 .f32) (xs0 : Vec F S512x1024 .f32) (xs1 : Vec F S512x8 .f32) :
    sout0_B_1 c i arg3 harg3 arg4 harg4 arg5 harg5 arg6 harg6 arg7 harg7 arg8 harg8 arg9 harg9 arg10 harg10 arg11 harg11 hc0 hc1 x0 x1 x2 x3 x4 x5 xs0 xs1 = k0_pay5 x0 x2 xs1 := by
  unfold sout0_B_1
  rw [View.read_writes_eq_canon _ _ _ (scover0_B_1 c i arg3 harg3 arg4 harg4 arg5 harg5 arg6 harg6 arg7 harg7 arg8 harg8 arg9 harg9 arg10 harg10 arg11 harg11 hc0 hc1 x0 x1 x2 x3 x4 x5 xs0 xs1)]
  unfold kernelRun0_B
  dsimp only
  rw [View.canon_unit_zero hz]
  simp only [View.readAt_eq_ld, harg3.read_unread, harg4.read_unread, harg5.read_unread, harg6.read_unread, harg7.read_unread, harg8.read_unread, harg10.read_unread, harg11.read_unread, View.ld_unit_zero (S := S512x1024) hz, View.ld_unit_zero (S := S1024x1024) hz, View.ld_unit_zero (S := S8x1024) hz, View.ld_unit_zero (S := S1024x8) hz, View.ld_unit_zero (S := S1x1024) hz, View.ld_unit_zero (S := S512x1) hz, View.ld_unit_zero (S := S512x8) hz]

/-! ## The last step: the totals are updated, and the output block is formed from the updated totals -/

/-- The dense total after the last step. -/
theorem main_C (c : Dev nD) (i : grid0.Coords) (arg3 : Memref sig .tc .vmem S512x1024 .f32) (harg3 : arg3.IsWhole) (arg4 : Memref sig .tc .vmem S1024x1024 .f32) (harg4 : arg4.IsWhole) (arg5 : Memref sig .tc .vmem S8x1024 .f32) (harg5 : arg5.IsWhole) (arg6 : Memref sig .tc .vmem S1024x8 .f32) (harg6 : arg6.IsWhole) (arg7 : Memref sig .tc .vmem S1x1024 .f32) (harg7 : arg7.IsWhole) (arg8 : Memref sig .tc .vmem S512x1 .f32) (harg8 : arg8.IsWhole) (arg9 : Memref sig .tc .vmem S512x1024 .f32) (harg9 : arg9.IsWhole) (arg10 : Memref sig .tc .vmem S512x1024 .f32) (harg10 : arg10.IsWhole) (arg11 : Memref sig .tc .vmem S512x8 .f32) (harg11 : arg11.IsWhole) (hc0 : ¬cond0_0 i) (hc1 : cond0_1 i)
    (x0 : Vec F S512x1024 .f32) (x1 : Vec F S1024x1024 .f32) (x2 : Vec F S8x1024 .f32) (x3 : Vec F S1024x8 .f32) (x4 : Vec F S1x1024 .f32) (x5 : Vec F S512x1 .f32) (xs0 : Vec F S512x1024 .f32) (xs1 : Vec F S512x8 .f32) :
    sout0_C_0 c i arg3 harg3 arg4 harg4 arg5 harg5 arg6 harg6 arg7 harg7 arg8 harg8 arg9 harg9 arg10 harg10 arg11 harg11 hc0 hc1 x0 x1 x2 x3 x4 x5 xs0 xs1 = k0_pay4 x0 x1 xs0 := by
  unfold sout0_C_0
  rw [View.read_writes_eq_canon _ _ _ (scover0_C_0 c i arg3 harg3 arg4 harg4 arg5 harg5 arg6 harg6 arg7 harg7 arg8 harg8 arg9 harg9 arg10 harg10 arg11 harg11 hc0 hc1 x0 x1 x2 x3 x4 x5 xs0 xs1)]
  unfold kernelRun0_C
  dsimp only
  sl_unfold_words
  rw [View.canon_unit_zero hz]
  simp only [View.readAt_eq_ld, harg3.read_unread, harg4.read_unread, harg5.read_unread, harg6.read_unread, harg7.read_unread, harg8.read_unread, harg10.read_unread, harg11.read_unread, View.ld_unit_zero (S := S512x1024) hz, View.ld_unit_zero (S := S1024x1024) hz, View.ld_unit_zero (S := S8x1024) hz, View.ld_unit_zero (S := S1024x8) hz, View.ld_unit_zero (S := S1x1024) hz, View.ld_unit_zero (S := S512x1) hz, View.ld_unit_zero (S := S512x8) hz]

/-- The low-rank total after the last step. -/
theorem lora_C (c : Dev nD) (i : grid0.Coords) (arg3 : Memref sig .tc .vmem S512x1024 .f32) (harg3 : arg3.IsWhole) (arg4 : Memref sig .tc .vmem S1024x1024 .f32) (harg4 : arg4.IsWhole) (arg5 : Memref sig .tc .vmem S8x1024 .f32) (harg5 : arg5.IsWhole) (arg6 : Memref sig .tc .vmem S1024x8 .f32) (harg6 : arg6.IsWhole) (arg7 : Memref sig .tc .vmem S1x1024 .f32) (harg7 : arg7.IsWhole) (arg8 : Memref sig .tc .vmem S512x1 .f32) (harg8 : arg8.IsWhole) (arg9 : Memref sig .tc .vmem S512x1024 .f32) (harg9 : arg9.IsWhole) (arg10 : Memref sig .tc .vmem S512x1024 .f32) (harg10 : arg10.IsWhole) (arg11 : Memref sig .tc .vmem S512x8 .f32) (harg11 : arg11.IsWhole) (hc0 : ¬cond0_0 i) (hc1 : cond0_1 i)
    (x0 : Vec F S512x1024 .f32) (x1 : Vec F S1024x1024 .f32) (x2 : Vec F S8x1024 .f32) (x3 : Vec F S1024x8 .f32) (x4 : Vec F S1x1024 .f32) (x5 : Vec F S512x1 .f32) (xs0 : Vec F S512x1024 .f32) (xs1 : Vec F S512x8 .f32) :
    sout0_C_1 c i arg3 harg3 arg4 harg4 arg5 harg5 arg6 harg6 arg7 harg7 arg8 harg8 arg9 harg9 arg10 harg10 arg11 harg11 hc0 hc1 x0 x1 x2 x3 x4 x5 xs0 xs1 = k0_pay5 x0 x2 xs1 := by
  unfold sout0_C_1
  rw [View.read_writes_eq_canon _ _ _ (scover0_C_1 c i arg3 harg3 arg4 harg4 arg5 harg5 arg6 harg6 arg7 harg7 arg8 harg8 arg9 harg9 arg10 harg10 arg11 harg11 hc0 hc1 x0 x1 x2 x3 x4 x5 xs0 xs1)]
  unfold kernelRun0_C
  dsimp only
  sl_unfold_words
  rw [View.canon_unit_zero hz]
  simp only [View.readAt_eq_ld, harg3.read_unread, harg4.read_unread, harg5.read_unread, harg6.read_unread, harg7.read_unread, harg8.read_unread, harg10.read_unread, harg11.read_unread, View.ld_unit_zero (S := S512x1024) hz, View.ld_unit_zero (S := S1024x1024) hz, View.ld_unit_zero (S := S8x1024) hz, View.ld_unit_zero (S := S1024x8) hz, View.ld_unit_zero (S := S1x1024) hz, View.ld_unit_zero (S := S512x1) hz, View.ld_unit_zero (S := S512x8) hz]

/-- The output block of the last step: the closing expression over the two totals as this step has just updated them,
    the low-rank factor's block, the mask column and the bias row. -/
theorem out_C (c : Dev nD) (i : grid0.Coords) (arg3 : Memref sig .tc .vmem S512x1024 .f32) (harg3 : arg3.IsWhole) (arg4 : Memref sig .tc .vmem S1024x1024 .f32) (harg4 : arg4.IsWhole) (arg5 : Memref sig .tc .vmem S8x1024 .f32) (harg5 : arg5.IsWhole) (arg6 : Memref sig .tc .vmem S1024x8 .f32) (harg6 : arg6.IsWhole) (arg7 : Memref sig .tc .vmem S1x1024 .f32) (harg7 : arg7.IsWhole) (arg8 : Memref sig .tc .vmem S512x1 .f32) (harg8 : arg8.IsWhole) (arg9 : Memref sig .tc .vmem S512x1024 .f32) (harg9 : arg9.IsWhole) (arg10 : Memref sig .tc .vmem S512x1024 .f32) (harg10 : arg10.IsWhole) (arg11 : Memref sig .tc .vmem S512x8 .f32) (harg11 : arg11.IsWhole) (hc0 : ¬cond0_0 i) (hc1 : cond0_1 i)
    (x0 : Vec F S512x1024 .f32) (x1 : Vec F S1024x1024 .f32) (x2 : Vec F S8x1024 .f32) (x3 : Vec F S1024x8 .f32) (x4 : Vec F S1x1024 .f32) (x5 : Vec F S512x1 .f32) (xs0 : Vec F S512x1024 .f32) (xs1 : Vec F S512x8 .f32) :
    out0_C_6 c i arg3 harg3 arg4 harg4 arg5 harg5 arg6 harg6 arg7 harg7 arg8 harg8 arg9 harg9 arg10 harg10 arg11 harg11 hc0 hc1 x0 x1 x2 x3 x4 x5 xs0 xs1 = k0_pay6 x3 (k0_pay5 x0 x2 xs1) x5 (k0_pay4 x0 x1 xs0) x4 := by
  unfold out0_C_6
  rw [View.read_writes_eq_canon _ _ _ (cover0_C_6 c i arg3 harg3 arg4 harg4 arg5 harg5 arg6 harg6 arg7 harg7 arg8 harg8 arg9 harg9 arg10 harg10 arg11 harg11 hc0 hc1 x0 x1 x2 x3 x4 x5 xs0 xs1)]
  unfold kernelRun0_C
  dsimp only
  sl_unfold_words
  rw [View.canon_unit_zero hz, View.readCov_unit_zero (S := S512x8) _ hz, View.readCov_unit_zero (S := S512x1024) _ hz]
  simp only [View.readAt_eq_ld, harg3.read_unread, harg4.read_unread, harg5.read_unread, harg6.read_unread, harg7.read_unread, harg8.read_unread, harg10.read_unread, harg11.read_unread, View.ld_unit_zero (S := S512x1024) hz, View.ld_unit_zero (S := S1024x1024) hz, View.ld_unit_zero (S := S8x1024) hz, View.ld_unit_zero (S := S1024x8) hz, View.ld_unit_zero (S := S1x1024) hz, View.ld_unit_zero (S := S512x1) hz, View.ld_unit_zero (S := S512x8) hz]

end Cert.KernelIdeal.Pieces

end
-- ==== Proof.LibRowsDot.lean ====
/-
  A matrix product of two rank-2 operands that contracts the LAST axis of both (`x · yᵀ`), read at an entry.

  For dimension numbers `d` over operands of shapes [M, K] and [N, K] and a result of shape [M, N] whose one
  contracted axis is the second of each operand — given as the four coordinate facts of `d`'s operand index
  maps, which for a literal record are decided or read off `DotDims.lhsIdx_val_of_single` — a `tpu.matmul` into
  the zero accumulator at the ideal instance is, at entry (p, q),

      Σ_{k < K} lhs[p, k] · rhs[q, k].

  The contraction's index type is re-indexed to `Fin K` through `ValueIdx.contrEquiv1`.
-/
import Idealize.ShloMosaic.PureOps.Ideal.Laws
import Idealize.ShloMosaic.Lib.ValueIdx

noncomputable section

open scoped BigOperators

namespace Cert.Lora

open Idealize.ShloMosaic Idealize.ShloMosaic.ValueIdx

/-- `x · yᵀ` into the zero accumulator, at entry (p, q): the sum over the shared last axis of the products of row
    `p` of the left operand and row `q` of the right. The hypotheses say where the record's operand index maps
    read: the left operand at (row of the entry, contraction position), the right at (column of the entry,
    contraction position). -/
theorem rows_dot_zero {M N K : Nat} {φ₁ φ₂ : FTy}
    (d : DotDims ⟨2, ![M, K]⟩ ⟨2, ![N, K]⟩ ⟨2, ![M, N]⟩) (prec : Option ContractPrecision)
    (hr : d.contr.rank = 1) (hs : d.contr.size ⟨0, by omega⟩ = K)
    (hl0 : ∀ (j : (⟨2, ![M, N]⟩ : Shape).Idx) (c : d.contr.Idx), (d.lhsIdx j c 0).val = (j 0).val)
    (hl1 : ∀ (j : (⟨2, ![M, N]⟩ : Shape).Idx) (c : d.contr.Idx), (d.lhsIdx j c 1).val = (c ⟨0, by omega⟩).val)
    (hr0 : ∀ (j : (⟨2, ![M, N]⟩ : Shape).Idx) (c : d.contr.Idx), (d.rhsIdx j c 0).val = (j 1).val)
    (hr1 : ∀ (j : (⟨2, ![M, N]⟩ : Shape).Idx) (c : d.contr.Idx), (d.rhsIdx j c 1).val = (c ⟨0, by omega⟩).val)
    (lhs : FVec Ideal ⟨2, ![M, K]⟩ φ₁) (rhs : FVec Ideal ⟨2, ![N, K]⟩ φ₂) (p : Fin M) (q : Fin N) :
    FloatOps.matmul d prec lhs rhs (constant (F := Ideal) ⟨2, ![M, N]⟩ .f32 0x00000000#32) (ix2 p q)
      = ∑ k : Fin K, lhs (ix2 p k) * rhs (ix2 q k) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 q k := funext fun a => Fin.ext (by
    match a with
    | ⟨0, _⟩ => exact hr0 _ _
    | ⟨1, _⟩ => exact (hr1 _ _).trans hk)
  rw [el, er]

end Cert.Lora

end
-- ==== Proof.Payload.lean ====
/-
  The body's computed values read at one entry, on the extended reals.

  Every matrix product in the body multiplies a block by the transpose of another (both operands are contracted along
  their second axis) into a zero block, so at entry (p, q) it is Σ_κ lhs[p, κ] · rhs[q, κ]. Rounding a block to a
  narrower format is the identity here. So at (p, q):

    the dense total's update is      acc[p, q] + Σ_κ x[p, κ] · W[q, κ]              (1024 columns per step),
    the low-rank total's update is   acc[p, ρ] + Σ_κ x[p, κ] · A[ρ, κ],
    the closing expression is        (main[p, q] + bias[0, q]) + mask[p, 0] · ((Σ_ρ lora[p, ρ] · B[q, ρ]) · 2),

  the bias row and the mask column reaching (p, q) by broadcasting.
-/
import proofs.«112531_j32607391711259_1_alg».proof.Proof.Gen.KernelIdeal.Skeleton
import proofs.«112531_j32607391711259_1_alg».proof.Proof.LibRowsDot
import Idealize.ShloMosaic.Lib.Pipeline.Value
import Idealize.ShloMosaic.Lib.ValueIdx
import Idealize.ShloMosaic.PureOps.Ideal.Laws

noncomputable section

open scoped BigOperators

namespace Cert.KernelIdeal.Payload

open Cert.KernelIdeal Cert.KernelIdeal.Gen Idealize.ShloMosaic Idealize.ShloMosaic.ValueIdx

/-! ## The three products -/

/-- A token block [512, 1024] against a dense-weight block [1024, 1024]: rows against rows. -/
theorem mm_main (lhs : FVec Ideal S512x1024 .bf16) (rhs : FVec Ideal S1024x1024 .bf16) (p : Fin 512) (q : Fin 1024) :
    matmul dot_S512x1024_S1024x1024_S512x1024_1_1_0_0_n_n none lhs rhs (constant (F := Ideal) S512x1024 .f32 0x00000000#32) (ix2 p q)
      = ∑ κ : Fin 1024, lhs (ix2 p κ) * rhs (ix2 q κ) :=
  Cert.Lora.rows_dot_zero dot_S512x1024_S1024x1024_S512x1024_1_1_0_0_n_n none rfl rfl
    (fun j c => by
      unfold DotDims.lhsIdx
      rw [dif_neg (show ¬(0 : Fin S512x1024.rank) ∈ dot_S512x1024_S1024x1024_S512x1024_1_1_0_0_n_n.lhsBatch by decide),
        dif_pos (show (0 : Fin S512x1024.rank) ∈ dot_S512x1024_S1024x1024_S512x1024_1_1_0_0_n_n.lhsNonContracting by decide)]
      rfl)
    (fun j c => dot_S512x1024_S1024x1024_S512x1024_1_1_0_0_n_n.lhsIdx_val_of_single rfl j c)
    (fun j c => by
      unfold DotDims.rhsIdx
      rw [dif_neg (show ¬(0 : Fin S1024x1024.rank) ∈ dot_S512x1024_S1024x1024_S512x1024_1_1_0_0_n_n.rhsBatch by decide),
        dif_pos (show (0 : Fin S1024x1024.rank) ∈ dot_S512x1024_S1024x1024_S512x1024_1_1_0_0_n_n.rhsNonContracting by decide)]
      rfl)
    (fun j c => dot_S512x1024_S1024x1024_S512x1024_1_1_0_0_n_n.rhsIdx_val_of_single rfl j c)
    lhs rhs p q

/-- A token block [512, 1024] against the low-rank down-projection's block [8, 1024]. -/
theorem mm_down (lhs : FVec Ideal S512x1024 .bf16) (rhs : FVec Ideal S8x1024 .bf16) (p : Fin 512) (q : Fin 8) :
    matmul dot_S512x1024_S8x1024_S512x8_1_1_0_0_n_n none lhs rhs (constant (F := Ideal) S512x8 .f32 0x00000000#32) (ix2 p q)
      = ∑ κ : Fin 1024, lhs (ix2 p κ) * rhs (ix2 q κ) :=
  Cert.Lora.rows_dot_zero dot_S512x1024_S8x1024_S512x8_1_1_0_0_n_n none rfl rfl
    (fun j c => by
      unfold DotDims.lhsIdx
      rw [dif_neg (show ¬(0 : Fin S512x1024.rank) ∈ dot_S512x1024_S8x1024_S512x8_1_1_0_0_n_n.lhsBatch by decide),
        dif_pos (show (0 : Fin S512x1024.rank) ∈ dot_S512x1024_S8x1024_S512x8_1_1_0_0_n_n.lhsNonContracting by decide)]
      rfl)
    (fun j c => dot_S512x1024_S8x1024_S512x8_1_1_0_0_n_n.lhsIdx_val_of_single rfl j c)
    (fun j c => by
      unfold DotDims.rhsIdx
      rw [dif_neg (show ¬(0 : Fin S8x1024.rank) ∈ dot_S512x1024_S8x1024_S512x8_1_1_0_0_n_n.rhsBatch by decide),
        dif_pos (show (0 : Fin S8x1024.rank) ∈ dot_S512x1024_S8x1024_S512x8_1_1_0_0_n_n.rhsNonContracting by decide)]
      rfl)
    (fun j c => dot_S512x1024_S8x1024_S512x8_1_1_0_0_n_n.rhsIdx_val_of_single rfl j c)
    lhs rhs p q

/-- The low-rank total [512, 8] against the up-projection's block [1024, 8]. -/
theorem mm_up (lhs : FVec Ideal S512x8 .bf16) (rhs : FVec Ideal S1024x8 .bf16) (p : Fin 512) (q : Fin 1024) :
    matmul dot_S512x8_S1024x8_S512x1024_1_1_0_0_n_n none lhs rhs (constant (F := Ideal) S512x1024 .f32 0x00000000#32) (ix2 p q)
      = ∑ κ : Fin 8, lhs (ix2 p κ) * rhs (ix2 q κ) :=
  Cert.Lora.rows_dot_zero dot_S512x8_S1024x8_S512x1024_1_1_0_0_n_n none rfl rfl
    (fun j c => by
      unfold DotDims.lhsIdx
      rw [dif_neg (show ¬(0 : Fin S512x8.rank) ∈ dot_S512x8_S1024x8_S512x1024_1_1_0_0_n_n.lhsBatch by decide),
        dif_pos (show (0 : Fin S512x8.rank) ∈ dot_S512x8_S1024x8_S512x1024_1_1_0_0_n_n.lhsNonContracting by decide)]
      rfl)
    (fun j c => dot_S512x8_S1024x8_S512x1024_1_1_0_0_n_n.lhsIdx_val_of_single rfl j c)
    (fun j c => by
      unfold DotDims.rhsIdx
      rw [dif_neg (show ¬(0 : Fin S1024x8.rank) ∈ dot_S512x8_S1024x8_S512x1024_1_1_0_0_n_n.rhsBatch by decide),
        dif_pos (show (0 : Fin S1024x8.rank) ∈ dot_S512x8_S1024x8_S512x1024_1_1_0_0_n_n.rhsNonContracting by decide)]
      rfl)
    (fun j c => dot_S512x8_S1024x8_S512x1024_1_1_0_0_n_n.rhsIdx_val_of_single rfl j c)
    lhs rhs p q

/-! ## The two broadcasts -/

/-- A row [1, 1024] broadcast down 512 rows reads, at (p, q), the row's entry q. -/
theorem bcast_row {α : Type} (x : S1x1024.Idx → α) (h : S1x1024.Broadcasts S512x1024) (p : Fin 512) (q : Fin 1024) :
    broadcastTo S512x1024 x h (ix2 p q) = x (ix2 (0 : Fin 1) q) :=
  broadcastTo_apply x h (ix2 p q) (ix2 (0 : Fin 1) q) fun a => by
    match a with
    | ⟨0, _⟩ => rfl
    | ⟨1, _⟩ => rfl

/-- A column [512, 1] broadcast across 1024 columns reads, at (p, q), the column's entry p. -/
theorem bcast_col {α : Type} (x : S512x1.Idx → α) (h : S512x1.Broadcasts S512x1024) (p : Fin 512) (q : Fin 1024) :
    broadcastTo S512x1024 x h (ix2 p q) = x (ix2 p (0 : Fin 1)) :=
  broadcastTo_apply x h (ix2 p q) (ix2 p (0 : Fin 1)) fun a => by
    match a with
    | ⟨0, _⟩ => rfl
    | ⟨1, _⟩ => rfl

/-! ## The stored values -/

/-- The block the first step stores into the dense total is zero everywhere. -/
theorem pay1_apply (j : S512x1024.Idx) : k0_pay1 (F := Ideal) j = 0 := by
  unfold k0_pay1
  simp only [shapeCast_self]
  exact Ideal.ofBits_zero_f32

/-- The block the first step stores into the low-rank total is zero everywhere. -/
theorem pay2_apply (j : S512x8.Idx) : k0_pay2 (F := Ideal) j = 0 := by
  unfold k0_pay2
  simp only [shapeCast_self]
  exact Ideal.ofBits_zero_f32

/-- One step of the dense total at (p, q): what it held plus the step's 1024 products. -/
theorem pay4_apply (x0 : Vec Ideal S512x1024 .f32) (x1 : Vec Ideal S1024x1024 .f32) (acc : Vec Ideal S512x1024 .f32)
    (p : Fin 512) (q : Fin 1024) :
    k0_pay4 (F := Ideal) x0 x1 acc (ix2 p q) = acc (ix2 p q) + ∑ κ : Fin 1024, x0 (ix2 p κ) * x1 (ix2 q κ) := by
  unfold k0_pay4 k0_pay3
  simp only [shapeCast_self]
  exact congrArg (acc (ix2 p q) + ·) (mm_main _ _ p q)

/-- One step of the low-rank total at (p, ρ): what it held plus the step's 1024 products. -/
theorem pay5_apply (x0 : Vec Ideal S512x1024 .f32) (x2 : Vec Ideal S8x1024 .f32) (acc : Vec Ideal S512x8 .f32)
    (p : Fin 512) (r : Fin 8) :
    k0_pay5 (F := Ideal) x0 x2 acc (ix2 p r) = acc (ix2 p r) + ∑ κ : Fin 1024, x0 (ix2 p κ) * x2 (ix2 r κ) := by
  unfold k0_pay5 k0_pay3
  simp only [shapeCast_self]
  exact congrArg (acc (ix2 p r) + ·) (mm_down _ _ p r)

/-- The closing expression at (p, q), of the up-projection's block `x3`, the low-rank total `lo`, the mask column
    `x5`, the dense total `ma` and the bias row `x4`. -/
theorem pay6_apply (x3 : Vec Ideal S1024x8 .f32) (lo : Vec Ideal S512x8 .f32) (x5 : Vec Ideal S512x1 .f32)
    (ma : Vec Ideal S512x1024 .f32) (x4 : Vec Ideal S1x1024 .f32) (p : Fin 512) (q : Fin 1024) :
    k0_pay6 (F := Ideal) x3 lo x5 ma x4 (ix2 p q)
      = (ma (ix2 p q) + x4 (ix2 (0 : Fin 1) q))
        + x5 (ix2 p (0 : Fin 1)) * ((∑ r : Fin 8, lo (ix2 p r) * x3 (ix2 q r)) * Ideal.ofBits .f32 0x40000000#32) := by
  unfold k0_pay6
  simp only [shapeCast_self]
  refine Eq.trans (b := (ma (ix2 p q) + broadcastTo S512x1024 x4 broadcasts_S1x1024_S512x1024 (ix2 p q))
      + broadcastTo S512x1024 x5 broadcasts_S512x1_S512x1024 (ix2 p q)
        * (matmul dot_S512x8_S1024x8_S512x1024_1_1_0_0_n_n none (truncf .bf16 lo bitsLt_bf16_f32) (truncf .bf16 x3 bitsLt_bf16_f32)
            (constant (F := Ideal) S512x1024 .f32 0x00000000#32) (ix2 p q) * Ideal.ofBits .f32 0x40000000#32)) rfl ?_
  rw [bcast_row, bcast_col, mm_up]
  rfl

end Cert.KernelIdeal.Payload

end
-- ==== Proof.LibPartialDot.lean ====
/-
  The dot product of two matrix rows accumulated block by block along the shared axis, on the extended reals.

  A tiled matrix product that walks the contraction axis in blocks keeps a running total: it starts at zero and each
  step adds the products over one more block of columns. Stated over natural-number coordinates, so that the block
  offsets of a tiling are plain arithmetic:

  * `at2 a r c` is entry (r, c) of a matrix, zero outside it;
  * `pdot a b r c n` is Σ_{k < n} a[r, k] · b[c, k], row r of `a` against row c of `b` over the first n columns;
  * over no columns it is zero (`pdot_zero`); one more block of `len` columns adds that block's sum
    (`pdot_add_block`); over all K columns it is the whole sum Σ_k a[r, k] · b[c, k] (`pdot_full`).

  Only associativity and commutativity of addition are used, so nothing needs to be finite.

  Also: a factor that is a one-bit mask read as the number 0 or 1 selects (`mask_mul`), because 0 · v = 0 and
  1 · v = v for every extended real v, the infinities included.
-/
import Idealize.ShloMosaic.PureOps.Ideal
import Idealize.ShloMosaic.PureOps.Ideal.Laws
import Idealize.ShloMosaic.Lib.ValueIdx

noncomputable section

open scoped BigOperators

namespace Cert.PartialDot

open Idealize.ShloMosaic Idealize.ShloMosaic.ValueIdx

/-! ## Matrix entries by natural-number coordinates -/

/-- Entry (r, c) of a matrix, the coordinates given as natural numbers; zero outside the matrix. -/
def at2 {R C : ℕ} (a : (⟨2, ![R, C]⟩ : Shape).Idx → EReal) (r c : ℕ) : EReal :=
  if h : r < R ∧ c < C then a (ix2 ⟨r, h.1⟩ ⟨c, h.2⟩) else 0

/-- Inside the matrix it is the entry. -/
theorem at2_val {R C : ℕ} (a : (⟨2, ![R, C]⟩ : Shape).Idx → EReal) (r : Fin R) (c : Fin C) :
    at2 a r.val c.val = a (ix2 r c) := dif_pos ⟨r.isLt, c.isLt⟩

/-- The same with the bounds given separately. -/
theorem at2_of_lt {R C : ℕ} (a : (⟨2, ![R, C]⟩ : Shape).Idx → EReal) (r c : ℕ) (hr : r < R) (hc : c < C) :
    at2 a r c = a (ix2 ⟨r, hr⟩ ⟨c, hc⟩) := dif_pos ⟨hr, hc⟩

/-! ## The dot product of two rows over the first n columns -/

/-- Row r of `a` against row c of `b`, over columns 0 … n − 1. -/
def pdot {R N K : ℕ} (a : (⟨2, ![R, K]⟩ : Shape).Idx → EReal) (b : (⟨2, ![N, K]⟩ : Shape).Idx → EReal)
    (r c n : ℕ) : EReal :=
  ∑ k ∈ Finset.range n, at2 a r k * at2 b c k

/-- Over no columns it is zero. -/
theorem pdot_zero {R N K : ℕ} (a : (⟨2, ![R, K]⟩ : Shape).Idx → EReal) (b : (⟨2, ![N, K]⟩ : Shape).Idx → EReal)
    (r c : ℕ) : pdot a b r c 0 = 0 := Finset.sum_range_zero _

/-- One more block of `len` columns adds that block's sum. -/
theorem pdot_add_block {R N K : ℕ} (a : (⟨2, ![R, K]⟩ : Shape).Idx → EReal) (b : (⟨2, ![N, K]⟩ : Shape).Idx → EReal)
    (r c kk len : ℕ) :
    pdot a b r c (kk * len) + ∑ κ : Fin len, at2 a r (kk * len + κ.val) * at2 b c (kk * len + κ.val)
      = pdot a b r c ((kk + 1) * len) := by
  unfold pdot
  rw [Nat.add_one_mul, Finset.sum_range_add, Finset.sum_range (fun x => at2 a r (kk * len + x) * at2 b c (kk * len + x))]

/-- Over all K columns it is the whole sum. -/
theorem pdot_full {R N K : ℕ} (a : (⟨2, ![R, K]⟩ : Shape).Idx → EReal) (b : (⟨2, ![N, K]⟩ : Shape).Idx → EReal)
    (r : Fin R) (c : Fin N) : pdot a b r.val c.val K = ∑ k : Fin K, a (ix2 r k) * b (ix2 c k) := by
  unfold pdot
  rw [Finset.sum_range (fun k => at2 a r.val k * at2 b c.val k)]
  exact Finset.sum_congr rfl fun k _ => by rw [at2_val, at2_val]

/-! ## A mask bit as a factor -/

/-- Multiplying by a mask bit read as the number 0 or 1 selects: 0 · v = 0 and 1 · v = v on all extended reals. -/
theorem mask_mul (b : BitVec 1) (v : EReal) : ((b.toNat : ℝ) : EReal) * v = Scalar.select b v 0 := by
  rcases (by decide : ∀ b : BitVec 1, b = 0#1 ∨ b = 1#1) b with rfl | rfl
  · rw [select_zero]; simp
  · rw [select_one]; simp

end Cert.PartialDot

end
-- ==== Proof.Spec.lean ====
/-
  The function both programs compute, on the extended reals, and the laws that join the two ways of computing it.

  With x : [4, 2048, 4096], a token mask : [4, 2048] of bits, W : [4096, 4096], b : [4096], A : [8, 4096] and
  B : [4096, 8], the result at (β, s, o) is

      (Σ_k x[β,s,k] · W[o,k] + b[o]) + (if mask[β,s] then (Σ_ρ (Σ_k x[β,s,k] · A[ρ,k]) · B[o,ρ]) · 2 else 0).

  One program forms each inner sum over k in one piece. The other walks the k axis in blocks of 1024 columns, adding each
  block's partial sum to a running total that starts at zero, and multiplies by the mask bit read as the number 0 or 1
  instead of selecting. The running total after some blocks is the dot product over the columns seen so far (`pdot`):
  it is zero before the first block, grows by exactly one block's sum per step, and over all the columns is the whole
  sum. On the extended reals 0 · v = 0 and 1 · v = v for every v, infinite or not, so the product with the mask bit is
  the selection; no finiteness is needed anywhere. The laws themselves are in the module this one imports.
-/
import proofs.«112531_j32607391711259_1_alg».proof.Proof.LibPartialDot

noncomputable section

open scoped BigOperators

namespace Cert.Spec

open Idealize.ShloMosaic Idealize.ShloMosaic.ValueIdx

/-! ## The accumulation laws, under this module's names -/

export Cert.PartialDot (at2 at2_val at2_of_lt pdot pdot_zero pdot_add_block pdot_full mask_mul)

/-! ## The result -/

/-- What the tiled region leaves in its [8192, 4096] output, of the arrays it is launched on: the flattened tokens
    `x2`, the weights, the bias as a row and the mask as a column of numbers. -/
def G2 (x2 : (⟨2, ![8192, 4096]⟩ : Shape).Idx → EReal) (wm : (⟨2, ![4096, 4096]⟩ : Shape).Idx → EReal)
    (wa : (⟨2, ![8, 4096]⟩ : Shape).Idx → EReal) (wb : (⟨2, ![4096, 8]⟩ : Shape).Idx → EReal)
    (bias2 : (⟨2, ![1, 4096]⟩ : Shape).Idx → EReal) (mask2 : (⟨2, ![8192, 1]⟩ : Shape).Idx → EReal) :
    (⟨2, ![8192, 4096]⟩ : Shape).Idx → EReal := fun j =>
  (pdot x2 wm (j 0).val (j 1).val 4096 + at2 bias2 0 (j 1).val)
    + at2 mask2 (j 0).val 0
      * ((∑ ρ : Fin 8, pdot x2 wa (j 0).val ρ.val 4096 * at2 wb (j 1).val ρ.val) * Ideal.ofBits .f32 0x40000000#32)

/-- The result array, of the six arguments. -/
def G (x : (⟨3, ![4, 2048, 4096]⟩ : Shape).Idx → EReal) (msk : (⟨2, ![4, 2048]⟩ : Shape).Idx → BitVec 1)
    (wm : (⟨2, ![4096, 4096]⟩ : Shape).Idx → EReal) (bias : (⟨1, ![4096]⟩ : Shape).Idx → EReal)
    (wa : (⟨2, ![8, 4096]⟩ : Shape).Idx → EReal) (wb : (⟨2, ![4096, 8]⟩ : Shape).Idx → EReal) :
    (⟨3, ![4, 2048, 4096]⟩ : Shape).Idx → EReal := fun i =>
  (∑ k : Fin 4096, x (ix3 (i 0) (i 1) k) * wm (ix2 (i 2) k) + bias (ix1 (i 2)))
    + Scalar.select (msk (ix2 (i 0) (i 1)))
        ((∑ ρ : Fin 8, (∑ k : Fin 4096, x (ix3 (i 0) (i 1) k) * wa (ix2 ρ k)) * wb (ix2 (i 2) ρ))
          * Ideal.ofBits .f32 0x40000000#32)
        0

end Cert.Spec

end
-- ==== Proof.LibJoinAxes.lean ====
/-
  Layout operations met when two projected matrices are added by broadcasting into a rank-3 array and that array is
  flattened for a matrix product, each read at an index given by coordinates.

  * A rank-4 block with two unit axes cast to a matrix: a `[1, a, 1, b]` or a `[1, 1, a, b]` array viewed `[a, b]`.
    A unit axis contributes nothing to the row-major position.
  * A rank-3 array broadcast along its middle axis (`[a, 1, c]` to `[a, b, c]`) or along its first axis (`[1, b, c]` to
    `[a, b, c]`): the broadcast axis' coordinate is forgotten.
  * The two leading axes of `[a, b, c]` folded into one of extent `n = a · b` and unfolded again: entry `(i, j, k)` and
    entry `(r, k)` are the same element exactly when `r = i · b + j`.
-/
import Idealize.ShloMosaic.Lib.Pipeline.Value
import Idealize.ShloMosaic.Lib.ValueIdx

namespace Idealize.ShloMosaic.ValueIdx

open Idealize.ShloMosaic

variable {α : Type}

/-! ## Two unit axes dropped by a shape cast -/

/-- A `[1, a, 1, b]` array cast to the matrix `[a, b]` reads, at `(i, j)`, the operand at `(0, i, 0, j)`: both have
    row-major position `i · b + j`. -/
theorem shapeCast_1a1b_ab_apply {a b : ℕ} (x : (⟨4, ![1, a, 1, b]⟩ : Shape).Idx → α)
    (h : (⟨4, ![1, a, 1, b]⟩ : Shape).ShapeCasts ⟨2, ![a, b]⟩) (i : Fin a) (j : Fin b) :
    shapeCast ⟨2, ![a, b]⟩ x h (ix2 i j) = x (ix4 (0 : Fin 1) i (0 : Fin 1) j) :=
  shapeCast_apply x h _ _ (by
    rw [Shape.rowMajor_val_four, Shape.rowMajor_val_two]
    show ((0 * a + i.val) * 1 + 0) * b + j.val = i.val * b + j.val
    simp only [Nat.zero_mul, Nat.zero_add, Nat.mul_one, Nat.add_zero])

/-- A `[1, 1, a, b]` array cast to the matrix `[a, b]` reads, at `(i, j)`, the operand at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-! ## A rank-3 array broadcast along one axis -/

/-- An `[a, 1, c]` array broadcast to `[a, b, c]` reads, at `(i, j, k)`, the operand at `(i, 0, k)`: every `j` sees the
    same slab. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- A `[1, b, c]` array broadcast to `[a, b, c]` reads, at `(i, j, k)`, the operand at `(0, j, k)`: every `i` sees the
    same matrix. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ v h (ix3 i j k) = v (ix3 (0 : Fin 1) j k) := by
  refine broadcastTo_apply v h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

/-! ## Two leading axes folded into one, and unfolded -/

/-- An `[a, b, c]` array cast to `[n, c]` (the two leading axes folded, `n = a · b`) reads, at `(r, k)` with
    `r = i · b + j`, the operand at `(i, j, k)`: both have row-major position `(i · b + j) · c + k`. -/
theorem shapeCast_abc_nc_apply {a b c n : ℕ} (x : (⟨3, ![a, b, c]⟩ : Shape).Idx → α)
    (h : (⟨3, ![a, b, c]⟩ : Shape).ShapeCasts ⟨2, ![n, c]⟩) (i : Fin a) (j : Fin b) (k : Fin c) (r : Fin n)
    (hr : r.val = i.val * b + j.val) :
    shapeCast ⟨2, ![n, c]⟩ x h (ix2 r k) = x (ix3 i j k) :=
  shapeCast_apply x h _ _ (by
    rw [Shape.rowMajor_val_three, Shape.rowMajor_val_two]
    show (i.val * b + j.val) * c + k.val = r.val * c + k.val
    rw [hr])

/-- An `[n, c]` array cast to `[a, b, c]` (its leading axis unfolded, `n = a · b`) reads, at `(i, j, k)`, the operand at
    `(r, k)` with `r = i · b + j`. -/
theorem shapeCast_nc_abc_apply {a b c n : ℕ} (x : (⟨2, ![n, c]⟩ : Shape).Idx → α)
    (h : (⟨2, ![n, c]⟩ : Shape).ShapeCasts ⟨3, ![a, b, c]⟩) (i : Fin a) (j : Fin b) (k : Fin c) (r : Fin n)
    (hr : r.val = i.val * b + j.val) :
    shapeCast ⟨3, ![a, b, c]⟩ x h (ix3 i j k) = x (ix2 r k) :=
  shapeCast_apply x h _ _ (by
    rw [Shape.rowMajor_val_two, Shape.rowMajor_val_three]
    show r.val * c + k.val = (i.val * b + j.val) * c + k.val
    rw [hr])

end Idealize.ShloMosaic.ValueIdx
-- ==== Proof.Blocks.lean ====
/-
  The tiling read back: which entries of which array each block is, and what the arrays the tiled region is launched on
  are in terms of the arguments.

  The region walks a 16 × 4 × 4 grid; at point t the token-row block is i = t / 16, the output-column block is
  j = (t / 4) mod 4 and the step along the contraction axis is k = t mod 4. The token block is rows 512 i … of
  columns 1024 k … of the flattened tokens; the dense-weight block is rows 1024 j … of columns 1024 k …; the
  down-projection's block is all 8 rows of columns 1024 k …; the up-projection's block is rows 1024 j …; the bias block
  is columns 1024 j … of the one bias row; the mask block is rows 512 i … of the one mask column.

  Before the region the tokens [4, 2048, 4096] are flattened to [8192, 4096] (row β · 2048 + s is token (β, s)), the
  mask bits are flattened to a column and read as the numbers 0 and 1, and the bias becomes a row.
-/
import proofs.«112531_j32607391711259_1_alg».proof.Proof.Gen.KernelIdeal.Frame
import proofs.«112531_j32607391711259_1_alg».proof.Proof.Spec
import proofs.«112531_j32607391711259_1_alg».proof.Proof.LibJoinAxes
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem

namespace Cert.KernelIdeal.Blocks

open Cert.KernelIdeal Cert.KernelIdeal.Gen Idealize.ShloMosaic.ValueIdx

variable (m : (ℓ : Loc nD τ sig) → Buf (Elt Ideal) ℓ)

/-! ## The arrays the region is launched on -/

/-- The flattened tokens. -/
abbrev X2 (c : Dev nD) : S8192x4096.Idx → EReal := V m c main_v0
/-- The dense weights. -/
abbrev Wm (c : Dev nD) : S4096x4096.Idx → EReal := V m c main_arg2
/-- The down-projection. -/
abbrev WA (c : Dev nD) : S8x4096.Idx → EReal := V m c main_arg4
/-- The up-projection. -/
abbrev WB (c : Dev nD) : S4096x8.Idx → EReal := V m c main_arg5
/-- The bias as a row. -/
abbrev B2 (c : Dev nD) : S1x4096.Idx → EReal := V m c main_v3
/-- The mask as a column of numbers. -/
abbrev M2 (c : Dev nD) : S8192x1.Idx → EReal := V m c main_v2

/-! ## The index maps over the grid -/

/-- Each window's block index at point t, on both axes, in terms of t. -/
theorem idx_facts : ∀ t : Fin cfg0.N,
    win0_0.index t (0 : Fin 2) = t.val / 16 ∧ win0_0.index t (1 : Fin 2) = t.val % 4
    ∧ win0_1.index t (0 : Fin 2) = t.val / 4 % 4 ∧ win0_1.index t (1 : Fin 2) = t.val % 4
    ∧ win0_2.index t (0 : Fin 2) = 0 ∧ win0_2.index t (1 : Fin 2) = t.val % 4
    ∧ win0_3.index t (0 : Fin 2) = t.val / 4 % 4 ∧ win0_3.index t (1 : Fin 2) = 0
    ∧ win0_4.index t (0 : Fin 2) = 0 ∧ win0_4.index t (1 : Fin 2) = t.val / 4 % 4
    ∧ win0_5.index t (0 : Fin 2) = t.val / 16 ∧ win0_5.index t (1 : Fin 2) = 0
    ∧ win0_6.index t (0 : Fin 2) = t.val / 16 ∧ win0_6.index t (1 : Fin 2) = t.val / 4 % 4 :=
  (by decide +kernel : ∀ t : Fin grid0.N, _)

/-! ## The input blocks at an entry -/

/-- The token block at point t. -/
theorem blk0 (c : Dev nD) (t : Fin cfg0.N) (p : Fin 512) (k : Fin 1024) :
    (iblk m c 0 t : S512x1024.Idx → EReal) (ix2 p k) = Spec.at2 (X2 m c) (t.val / 16 * 512 + p.val) (t.val % 4 * 1024 + k.val) := by
  have hN : t.val < 256 := lt_of_lt_of_eq t.isLt (show cfg0.N = 256 from N_0)
  have hp := p.isLt
  have hk := k.isLt
  rw [Spec.at2_of_lt _ _ _ (by omega) (by omega)]
  obtain ⟨e00, e01, e10, e11, e20, e21, e30, e31, e40, e41, e50, e51, e60, e61⟩ := idx_facts t
  show V m c main_v0 (((cfg0.win 0).blk t).view.emb (ix2 p k)) = V m c main_v0 _
  refine congrArg (V m c main_v0) (funext fun a => Fin.ext ?_)
  match a with
  | ⟨0, _⟩ => show win0_0.index t (0 : Fin 2) * 512 + 1 * p.val = t.val / 16 * 512 + p.val; rw [e00]; omega
  | ⟨1, _⟩ => show win0_0.index t (1 : Fin 2) * 1024 + 1 * k.val = t.val % 4 * 1024 + k.val; rw [e01]; omega

/-- The dense-weight block at point t. -/
theorem blk1 (c : Dev nD) (t : Fin cfg0.N) (q : Fin 1024) (k : Fin 1024) :
    (iblk m c 1 t : S1024x1024.Idx → EReal) (ix2 q k) = Spec.at2 (Wm m c) (t.val / 4 % 4 * 1024 + q.val) (t.val % 4 * 1024 + k.val) := by
  have hN : t.val < 256 := lt_of_lt_of_eq t.isLt (show cfg0.N = 256 from N_0)
  have hq := q.isLt
  have hk := k.isLt
  rw [Spec.at2_of_lt _ _ _ (by omega) (by omega)]
  obtain ⟨e00, e01, e10, e11, e20, e21, e30, e31, e40, e41, e50, e51, e60, e61⟩ := idx_facts t
  show V m c main_arg2 (((cfg0.win 1).blk t).view.emb (ix2 q k)) = V m c main_arg2 _
  refine congrArg (V m c main_arg2) (funext fun a => Fin.ext ?_)
  match a with
  | ⟨0, _⟩ => show win0_1.index t (0 : Fin 2) * 1024 + 1 * q.val = t.val / 4 % 4 * 1024 + q.val; rw [e10]; omega
  | ⟨1, _⟩ => show win0_1.index t (1 : Fin 2) * 1024 + 1 * k.val = t.val % 4 * 1024 + k.val; rw [e11]; omega

/-- The down-projection's block at point t. -/
theorem blk2 (c : Dev nD) (t : Fin cfg0.N) (r : Fin 8) (k : Fin 1024) :
    (iblk m c 2 t : S8x1024.Idx → EReal) (ix2 r k) = Spec.at2 (WA m c) (r.val) (t.val % 4 * 1024 + k.val) := by
  have hN : t.val < 256 := lt_of_lt_of_eq t.isLt (show cfg0.N = 256 from N_0)
  have hr := r.isLt
  have hk := k.isLt
  rw [Spec.at2_of_lt _ _ _ (by omega) (by omega)]
  obtain ⟨e00, e01, e10, e11, e20, e21, e30, e31, e40, e41, e50, e51, e60, e61⟩ := idx_facts t
  show V m c main_arg4 (((cfg0.win 2).blk t).view.emb (ix2 r k)) = V m c main_arg4 _
  refine congrArg (V m c main_arg4) (funext fun a => Fin.ext ?_)
  match a with
  | ⟨0, _⟩ => show win0_2.index t (0 : Fin 2) * 8 + 1 * r.val = r.val; rw [e20]; omega
  | ⟨1, _⟩ => show win0_2.index t (1 : Fin 2) * 1024 + 1 * k.val = t.val % 4 * 1024 + k.val; rw [e21]; omega

/-- The up-projection's block at point t. -/
theorem blk3 (c : Dev nD) (t : Fin cfg0.N) (q : Fin 1024) (r : Fin 8) :
    (iblk m c 3 t : S1024x8.Idx → EReal) (ix2 q r) = Spec.at2 (WB m c) (t.val / 4 % 4 * 1024 + q.val) (r.val) := by
  have hN : t.val < 256 := lt_of_lt_of_eq t.isLt (show cfg0.N = 256 from N_0)
  have hq := q.isLt
  have hr := r.isLt
  rw [Spec.at2_of_lt _ _ _ (by omega) (by omega)]
  obtain ⟨e00, e01, e10, e11, e20, e21, e30, e31, e40, e41, e50, e51, e60, e61⟩ := idx_facts t
  show V m c main_arg5 (((cfg0.win 3).blk t).view.emb (ix2 q r)) = V m c main_arg5 _
  refine congrArg (V m c main_arg5) (funext fun a => Fin.ext ?_)
  match a with
  | ⟨0, _⟩ => show win0_3.index t (0 : Fin 2) * 1024 + 1 * q.val = t.val / 4 % 4 * 1024 + q.val; rw [e30]; omega
  | ⟨1, _⟩ => show win0_3.index t (1 : Fin 2) * 8 + 1 * r.val = r.val; rw [e31]; omega

/-- The bias block at point t. -/
theorem blk4 (c : Dev nD) (t : Fin cfg0.N) (z : Fin 1) (q : Fin 1024) :
    (iblk m c 4 t : S1x1024.Idx → EReal) (ix2 z q) = Spec.at2 (B2 m c) (0) (t.val / 4 % 4 * 1024 + q.val) := by
  have hN : t.val < 256 := lt_of_lt_of_eq t.isLt (show cfg0.N = 256 from N_0)
  have hz := z.isLt
  have hq := q.isLt
  rw [Spec.at2_of_lt _ _ _ (by omega) (by omega)]
  obtain ⟨e00, e01, e10, e11, e20, e21, e30, e31, e40, e41, e50, e51, e60, e61⟩ := idx_facts t
  show V m c main_v3 (((cfg0.win 4).blk t).view.emb (ix2 z q)) = V m c main_v3 _
  refine congrArg (V m c main_v3) (funext fun a => Fin.ext ?_)
  match a with
  | ⟨0, _⟩ => show win0_4.index t (0 : Fin 2) * 1 + 1 * z.val = 0; rw [e40]; omega
  | ⟨1, _⟩ => show win0_4.index t (1 : Fin 2) * 1024 + 1 * q.val = t.val / 4 % 4 * 1024 + q.val; rw [e41]; omega

/-- The mask block at point t. -/
theorem blk5 (c : Dev nD) (t : Fin cfg0.N) (p : Fin 512) (z : Fin 1) :
    (iblk m c 5 t : S512x1.Idx → EReal) (ix2 p z) = Spec.at2 (M2 m c) (t.val / 16 * 512 + p.val) (0) := by
  have hN : t.val < 256 := lt_of_lt_of_eq t.isLt (show cfg0.N = 256 from N_0)
  have hp := p.isLt
  have hz := z.isLt
  rw [Spec.at2_of_lt _ _ _ (by omega) (by omega)]
  obtain ⟨e00, e01, e10, e11, e20, e21, e30, e31, e40, e41, e50, e51, e60, e61⟩ := idx_facts t
  show V m c main_v2 (((cfg0.win 5).blk t).view.emb (ix2 p z)) = V m c main_v2 _
  refine congrArg (V m c main_v2) (funext fun a => Fin.ext ?_)
  match a with
  | ⟨0, _⟩ => show win0_5.index t (0 : Fin 2) * 512 + 1 * p.val = t.val / 16 * 512 + p.val; rw [e50]; omega
  | ⟨1, _⟩ => show win0_5.index t (1 : Fin 2) * 1 + 1 * z.val = 0; rw [e51]; omega

/-! ## The launched arrays in terms of the arguments -/

/-- Row β · 2048 + s of the flattened tokens is token (β, s). -/
theorem X2_apply (c : Dev nD) (b : Fin 4) (s : Fin 2048) (k : Fin 4096) (r : Fin 8192) (hr : r.val = b.val * 2048 + s.val) :
    X2 m c (ix2 r k) = (m ((c : Thread nD τ).loc main_arg0) : S4x2048x4096.Idx → EReal) (ix3 b s k) := by
  have e : (V m c main_v0 : S8192x4096.Idx → EReal)
      = shapeCast S8192x4096 (m ((c : Thread nD τ).loc main_arg0)) shapeCasts_S4x2048x4096_S8192x4096 := by
    show StableHlo.after hostOps0 (fun b => m (c, b)) (Proc.devRef .tc main_v0) = _
    after_results
    rfl
  show (V m c main_v0 : S8192x4096.Idx → EReal) (ix2 r k) = _
  rw [e]
  exact shapeCast_abc_nc_apply _ _ b s k r hr

/-- Entry β · 2048 + s of the mask column is the bit of token (β, s) read as the number 0 or 1. -/
theorem M2_apply (c : Dev nD) (b : Fin 4) (s : Fin 2048) (r : Fin 8192) (hr : r.val = b.val * 2048 + s.val) :
    M2 m c (ix2 r (0 : Fin 1))
      = ((((m ((c : Thread nD τ).loc main_arg1) : S4x2048.Idx → BitVec 1) (ix2 b s)).toNat : ℝ) : EReal) := by
  have e : (V m c main_v2 : S8192x1.Idx → EReal)
      = uitofp (F := Ideal) .f32 (shapeCast S8192x1 (m ((c : Thread nD τ).loc main_arg1)) shapeCasts_S4x2048_S8192x1) := by
    show StableHlo.after hostOps0 (fun b => m (c, b)) (Proc.devRef .tc main_v2) = _
    after_results
    rfl
  show (V m c main_v2 : S8192x1.Idx → EReal) (ix2 r (0 : Fin 1)) = _
  rw [e]
  show (((shapeCast S8192x1 (m ((c : Thread nD τ).loc main_arg1)) shapeCasts_S4x2048_S8192x1 (ix2 r (0 : Fin 1))).toNat : ℝ) : EReal) = _
  rw [shapeCast_apply (s := S4x2048) (t := S8192x1) (m ((c : Thread nD τ).loc main_arg1) : S4x2048.Idx → BitVec 1)
    shapeCasts_S4x2048_S8192x1 (ix2 r (0 : Fin 1)) (ix2 b s) (by
      rw [Shape.rowMajor_val_two, Shape.rowMajor_val_two]
      show b.val * 2048 + s.val = r.val * 1 + 0
      omega)]

/-- Entry o of the bias row is the bias' entry o. -/
theorem B2_apply (c : Dev nD) (o : Fin 4096) :
    B2 m c (ix2 (0 : Fin 1) o) = (m ((c : Thread nD τ).loc main_arg3) : S4096.Idx → EReal) (ix1 o) := by
  have e : (V m c main_v3 : S1x4096.Idx → EReal)
      = shapeCast S1x4096 (m ((c : Thread nD τ).loc main_arg3)) shapeCasts_S4096_S1x4096 := by
    show StableHlo.after hostOps0 (fun b => m (c, b)) (Proc.devRef .tc main_v3) = _
    after_results
    rfl
  show (V m c main_v3 : S1x4096.Idx → EReal) (ix2 (0 : Fin 1) o) = _
  rw [e]
  exact shapeCast_apply _ _ (ix2 (0 : Fin 1) o) (ix1 o) (by
    rw [Shape.rowMajor_val_one, Shape.rowMajor_val_two]
    show o.val = 0 * 4096 + o.val
    omega)

end Cert.KernelIdeal.Blocks

end
-- ==== Proof.Invariant.lean ====
/-
  The two running totals after each grid point, and the output block of a last step.

  At grid point t (token-row block i = t / 16, output-column block j = (t / 4) mod 4, step k = t mod 4) the dense
  total holds, at (p, q), the dot product of token row 512 i + p with dense-weight row 1024 j + q over the first
  1024 (k + 1) columns; the low-rank total holds, at (p, ρ), the dot product of that token row with down-projection row
  ρ over the same columns. A first step starts both from zero; every other step continues from the point before, which
  has the same i and j and one step less. By induction on the point. At a last step (k = 3) all 4096 columns have been
  seen, and the block the body forms is the region's result function at rows 512 i … and columns 1024 j ….
-/
import proofs.«112531_j32607391711259_1_alg».proof.Proof.Pieces
import proofs.«112531_j32607391711259_1_alg».proof.Proof.Payload
import proofs.«112531_j32607391711259_1_alg».proof.Proof.Blocks

set_option maxRecDepth 16384

noncomputable section

open scoped BigOperators
open Idealize.ShloMosaic Idealize.ShloMosaic.TcCoe Idealize.SL.Sem

namespace Cert.KernelIdeal.Invariant

open Cert.KernelIdeal Cert.KernelIdeal.Gen Idealize.ShloMosaic.ValueIdx Cert.KernelIdeal.Blocks

/-! ## One step, over plain blocks -/

/-- One step of the dense total: if the token block and the weight block are the entries of `X` and `W` at rows
    `r0 …`, `c0 …` and columns `1024 kk …`, and the total so far covers the first `1024 kk` columns, the updated total
    covers the first `1024 (kk + 1)`. -/
theorem main_step {R N K : ℕ} (X : (⟨2, ![R, K]⟩ : Shape).Idx → EReal) (W : (⟨2, ![N, K]⟩ : Shape).Idx → EReal)
    (x0 : Vec Ideal S512x1024 .f32) (x1 : Vec Ideal S1024x1024 .f32) (acc : Vec Ideal S512x1024 .f32) (r0 c0 kk : ℕ)
    (h0 : ∀ (p : Fin 512) (k : Fin 1024), x0 (ix2 p k) = Spec.at2 X (r0 + p.val) (kk * 1024 + k.val))
    (h1 : ∀ (q : Fin 1024) (k : Fin 1024), x1 (ix2 q k) = Spec.at2 W (c0 + q.val) (kk * 1024 + k.val))
    (hacc : ∀ (p : Fin 512) (q : Fin 1024), acc (ix2 p q) = Spec.pdot X W (r0 + p.val) (c0 + q.val) (kk * 1024))
    (p : Fin 512) (q : Fin 1024) :
    k0_pay4 (F := Ideal) x0 x1 acc (ix2 p q) = Spec.pdot X W (r0 + p.val) (c0 + q.val) ((kk + 1) * 1024) := by
  rw [Payload.pay4_apply, hacc p q, ← Spec.pdot_add_block]
  exact congrArg (_ + ·) (Finset.sum_congr rfl fun k _ => by rw [h0 p k, h1 q k])

/-- One step of the low-rank total, the same with the down-projection's 8 rows in place of a weight block. -/
theorem lora_step {R K : ℕ} (X : (⟨2, ![R, K]⟩ : Shape).Idx → EReal) (A : (⟨2, ![8, K]⟩ : Shape).Idx → EReal)
    (x0 : Vec Ideal S512x1024 .f32) (x2 : Vec Ideal S8x1024 .f32) (acc : Vec Ideal S512x8 .f32) (r0 kk : ℕ)
    (h0 : ∀ (p : Fin 512) (k : Fin 1024), x0 (ix2 p k) = Spec.at2 X (r0 + p.val) (kk * 1024 + k.val))
    (h2 : ∀ (r : Fin 8) (k : Fin 1024), x2 (ix2 r k) = Spec.at2 A r.val (kk * 1024 + k.val))
    (hacc : ∀ (p : Fin 512) (r : Fin 8), acc (ix2 p r) = Spec.pdot X A (r0 + p.val) r.val (kk * 1024))
    (p : Fin 512) (r : Fin 8) :
    k0_pay5 (F := Ideal) x0 x2 acc (ix2 p r) = Spec.pdot X A (r0 + p.val) r.val ((kk + 1) * 1024) := by
  rw [Payload.pay5_apply, hacc p r, ← Spec.pdot_add_block]
  exact congrArg (_ + ·) (Finset.sum_congr rfl fun k _ => by rw [h0 p k, h2 r k])

/-- The closing expression over complete totals is the region's result function at the block's place. -/
theorem out_step (X : S8192x4096.Idx → EReal) (W : S4096x4096.Idx → EReal) (A : S8x4096.Idx → EReal)
    (B : S4096x8.Idx → EReal) (Bi : S1x4096.Idx → EReal) (Mk : S8192x1.Idx → EReal)
    (x3 : Vec Ideal S1024x8 .f32) (lo : Vec Ideal S512x8 .f32) (x5 : Vec Ideal S512x1 .f32)
    (ma : Vec Ideal S512x1024 .f32) (x4 : Vec Ideal S1x1024 .f32) (r0 c0 : ℕ)
    (h3 : ∀ (q : Fin 1024) (r : Fin 8), x3 (ix2 q r) = Spec.at2 B (c0 + q.val) r.val)
    (h4 : ∀ (z : Fin 1) (q : Fin 1024), x4 (ix2 z q) = Spec.at2 Bi 0 (c0 + q.val))
    (h5 : ∀ (p : Fin 512) (z : Fin 1), x5 (ix2 p z) = Spec.at2 Mk (r0 + p.val) 0)
    (hma : ∀ (p : Fin 512) (q : Fin 1024), ma (ix2 p q) = Spec.pdot X W (r0 + p.val) (c0 + q.val) 4096)
    (hlo : ∀ (p : Fin 512) (r : Fin 8), lo (ix2 p r) = Spec.pdot X A (r0 + p.val) r.val 4096)
    (p : Fin 512) (q : Fin 1024) (jr : Fin 8192) (jc : Fin 4096) (hjr : jr.val = r0 + p.val) (hjc : jc.val = c0 + q.val) :
    k0_pay6 (F := Ideal) x3 lo x5 ma x4 (ix2 p q) = Spec.G2 X W A B Bi Mk (ix2 jr jc) := by
  rw [Payload.pay6_apply, hma p q, h4 0 q, h5 p 0]
  show _ = (Spec.pdot X W jr.val jc.val 4096 + Spec.at2 Bi 0 jc.val)
    + Spec.at2 Mk jr.val 0 * ((∑ r : Fin 8, Spec.pdot X A jr.val r.val 4096 * Spec.at2 B jc.val r.val) * Ideal.ofBits .f32 0x40000000#32)
  rw [hjr, hjc]
  refine congrArg (fun s => _ + _ * (s * _)) (Finset.sum_congr rfl fun r _ => ?_)
  rw [hlo p r, h3 q r]

/-! ## The totals after each point -/

variable (m : (ℓ : Loc nD τ sig) → Buf (Elt Ideal) ℓ)

/-- What the dense total holds after point n. -/
def MainAt (c : Dev nD) (n : ℕ) (v : S512x1024.Idx → EReal) : Prop :=
  ∀ (p : Fin 512) (q : Fin 1024),
    v (ix2 p q) = Spec.pdot (X2 m c) (Wm m c) (n / 16 * 512 + p.val) (n / 4 % 4 * 1024 + q.val) ((n % 4 + 1) * 1024)

/-- What the low-rank total holds after point n. -/
def LoraAt (c : Dev nD) (n : ℕ) (v : S512x8.Idx → EReal) : Prop :=
  ∀ (p : Fin 512) (r : Fin 8),
    v (ix2 p r) = Spec.pdot (X2 m c) (WA m c) (n / 16 * 512 + p.val) r.val ((n % 4 + 1) * 1024)

/-- A first step: both totals start from the zeros it stores. -/
theorem inv_first (c : Dev nD) (t : Fin cfg0.N) (h0 : t.val % 4 = 0) :
    MainAt m c t.val (outsAt0 m c t.val t.isLt).2.1 ∧ LoraAt m c t.val (outsAt0 m c t.val t.isLt).2.2 := by
  have h1 : ¬t.val % 4 = 3 := by omega
  rw [outsAt0_A m c t h0 h1]
  dsimp only
  rw [Pieces.main_A, Pieces.lora_A]
  constructor
  · intro p q
    exact main_step (X2 m c) (Wm m c) (iblk m c 0 t) (iblk m c 1 t) (k0_pay1 (F := Ideal)) (t.val / 16 * 512)
      (t.val / 4 % 4 * 1024) (t.val % 4) (fun p k => blk0 m c t p k) (fun q k => blk1 m c t q k)
      (fun p q => by rw [Payload.pay1_apply, h0, Nat.zero_mul, Spec.pdot_zero]) p q
  · intro p r
    exact lora_step (X2 m c) (WA m c) (iblk m c 0 t) (iblk m c 2 t) (k0_pay2 (F := Ideal)) (t.val / 16 * 512)
      (t.val % 4) (fun p k => blk0 m c t p k) (fun r k => blk2 m c t r k)
      (fun p r => by rw [Payload.pay2_apply, h0, Nat.zero_mul, Spec.pdot_zero]) p r

/-- A later step: both totals continue from the point before, which has the same row and column blocks. -/
theorem inv_next (c : Dev nD) (t : Fin cfg0.N) (h0 : ¬t.val % 4 = 0)
    (ih : MainAt m c (t.val - 1) (outsAt0 m c (t.val - 1) (Nat.lt_of_le_of_lt (Nat.sub_le _ _) t.isLt)).2.1
      ∧ LoraAt m c (t.val - 1) (outsAt0 m c (t.val - 1) (Nat.lt_of_le_of_lt (Nat.sub_le _ _) t.isLt)).2.2) :
    MainAt m c t.val (outsAt0 m c t.val t.isLt).2.1 ∧ LoraAt m c t.val (outsAt0 m c t.val t.isLt).2.2 := by
  have e1 : (t.val - 1) / 16 = t.val / 16 := by omega
  have e2 : (t.val - 1) / 4 % 4 = t.val / 4 % 4 := by omega
  have e3 : (t.val - 1) % 4 + 1 = t.val % 4 := by omega
  have hm : ∀ (p : Fin 512) (q : Fin 1024),
      (outsAt0 m c (t.val - 1) (Nat.lt_of_le_of_lt (Nat.sub_le _ _) t.isLt)).2.1 (ix2 p q)
        = Spec.pdot (X2 m c) (Wm m c) (t.val / 16 * 512 + p.val) (t.val / 4 % 4 * 1024 + q.val) (t.val % 4 * 1024) :=
    fun p q => by rw [ih.1 p q, e1, e2, e3]
  have hl : ∀ (p : Fin 512) (r : Fin 8),
      (outsAt0 m c (t.val - 1) (Nat.lt_of_le_of_lt (Nat.sub_le _ _) t.isLt)).2.2 (ix2 p r)
        = Spec.pdot (X2 m c) (WA m c) (t.val / 16 * 512 + p.val) r.val (t.val % 4 * 1024) :=
    fun p r => by rw [ih.2 p r, e1, e3]
  by_cases h1 : t.val % 4 = 3
  · rw [outsAt0_C m c t h0 h1]
    dsimp only
    rw [Pieces.main_C, Pieces.lora_C]
    exact ⟨fun p q => main_step (X2 m c) (Wm m c) (iblk m c 0 t) (iblk m c 1 t) _ (t.val / 16 * 512)
        (t.val / 4 % 4 * 1024) (t.val % 4) (fun p k => blk0 m c t p k) (fun q k => blk1 m c t q k) hm p q,
      fun p r => lora_step (X2 m c) (WA m c) (iblk m c 0 t) (iblk m c 2 t) _ (t.val / 16 * 512)
        (t.val % 4) (fun p k => blk0 m c t p k) (fun r k => blk2 m c t r k) hl p r⟩
  · rw [outsAt0_B m c t h0 h1]
    dsimp only
    rw [Pieces.main_B, Pieces.lora_B]
    exact ⟨fun p q => main_step (X2 m c) (Wm m c) (iblk m c 0 t) (iblk m c 1 t) _ (t.val / 16 * 512)
        (t.val / 4 % 4 * 1024) (t.val % 4) (fun p k => blk0 m c t p k) (fun q k => blk1 m c t q k) hm p q,
      fun p r => lora_step (X2 m c) (WA m c) (iblk m c 0 t) (iblk m c 2 t) _ (t.val / 16 * 512)
        (t.val % 4) (fun p k => blk0 m c t p k) (fun r k => blk2 m c t r k) hl p r⟩

/-- The totals after every point, by induction on the point. -/
theorem inv (c : Dev nD) : ∀ (n : ℕ) (h : n < cfg0.N),
    MainAt m c n (outsAt0 m c n h).2.1 ∧ LoraAt m c n (outsAt0 m c n h).2.2 := by
  intro n
  induction n with
  | zero => intro h; exact inv_first m c ⟨0, h⟩ rfl
  | succ n ih =>
    intro h
    by_cases h0 : (n + 1) % 4 = 0
    · exact inv_first m c ⟨n + 1, h⟩ h0
    · exact inv_next m c ⟨n + 1, h⟩ h0 (ih (Nat.lt_of_succ_lt h))

/-- The output block of a last step is the region's result function at rows 512 i … and columns 1024 j …. -/
theorem out_last (c : Dev nD) (t : Fin cfg0.N) (h3 : t.val % 4 = 3) (p : Fin 512) (q : Fin 1024)
    (jr : Fin 8192) (jc : Fin 4096) (hjr : jr.val = t.val / 16 * 512 + p.val) (hjc : jc.val = t.val / 4 % 4 * 1024 + q.val) :
    (outsAt0 m c t.val t.isLt).1 (ix2 p q)
      = Spec.G2 (X2 m c) (Wm m c) (WA m c) (WB m c) (B2 m c) (M2 m c) (ix2 jr jc) := by
  have h0 : ¬t.val % 4 = 0 := by omega
  have e4 : (t.val % 4 + 1) * 1024 = 4096 := by omega
  have hi := inv m c t.val t.isLt
  rw [outsAt0_C m c t h0 h3] at hi
  dsimp only at hi
  rw [Pieces.main_C, Pieces.lora_C] at hi
  rw [outsAt0_C m c t h0 h3]
  dsimp only
  rw [Pieces.out_C]
  exact out_step (X2 m c) (Wm m c) (WA m c) (WB m c) (B2 m c) (M2 m c) (iblk m c 3 t) _ (iblk m c 5 t) _ (iblk m c 4 t)
    (t.val / 16 * 512) (t.val / 4 % 4 * 1024) (fun q r => blk3 m c t q r) (fun z q => blk4 m c t z q)
    (fun p z => blk5 m c t p z)
    (fun p q => (hi.1 p q).trans (by rw [e4]))
    (fun p r => (hi.2 p r).trans (by rw [e4]))
    p q jr jc hjr hjc

end Cert.KernelIdeal.Invariant

end
-- ==== Proof.Final.lean ====
/-
  The array the tiled region leaves, the program's result, and the run.

  The output block is written back exactly at the last steps (k = 3), and the block written at point t is rows
  512 i … and columns 1024 j … of the region's result function; every entry (r, o) of the [8192, 4096] output lies in
  the block of the last step with i = r / 512 and j = o / 1024, so the output array is that function. After the region
  the output is unflattened to [4, 2048, 4096]: entry (β, s, o) is row β · 2048 + s. There all 4096 columns of each
  dot product have been seen, so each is the whole sum over the argument arrays, and the product with the mask number
  is the selection by the mask bit: the result is the specification's function of the six arguments.
-/
import proofs.«112531_j32607391711259_1_alg».proof.Proof.Invariant
import Idealize.ShloMosaic.Lib.Pipeline.Value
import Idealize.ShloMosaic.Lib.StableHlo.Run

set_option maxRecDepth 16384

noncomputable section

open scoped BigOperators
open Idealize.ShloMosaic Idealize.ShloMosaic.TcCoe Idealize.SL.Sem
open Idealize.ShloMosaic.Pipeline (Dat)

namespace Cert.KernelIdeal.Final

open Cert.KernelIdeal Cert.KernelIdeal.Gen Idealize.ShloMosaic.ValueIdx Cert.KernelIdeal.Blocks

variable (m : (ℓ : Loc nD τ sig) → Buf (Elt Ideal) ℓ) (ρ : Dev nD → PrngReg)

/-- The region's [8192, 4096] result, of the arrays it is launched on. -/
abbrev region (c : Dev nD) : S8192x4096.Idx → EReal :=
  Spec.G2 (X2 m c) (Wm m c) (WA m c) (WB m c) (B2 m c) (M2 m c)

/-- The six arguments, with their shapes. -/
abbrev a0 (c : Dev nD) : S4x2048x4096.Idx → EReal := m ((c.tc : Thread nD τ).loc main_arg0)
abbrev a1 (c : Dev nD) : S4x2048.Idx → BitVec 1 := m ((c.tc : Thread nD τ).loc main_arg1)
abbrev a2 (c : Dev nD) : S4096x4096.Idx → EReal := m ((c.tc : Thread nD τ).loc main_arg2)
abbrev a3 (c : Dev nD) : S4096.Idx → EReal := m ((c.tc : Thread nD τ).loc main_arg3)
abbrev a4 (c : Dev nD) : S8x4096.Idx → EReal := m ((c.tc : Thread nD τ).loc main_arg4)
abbrev a5 (c : Dev nD) : S4096x8.Idx → EReal := m ((c.tc : Thread nD τ).loc main_arg5)

/-! ## What a last step writes back -/

/-- The block written back at a last step is that block of the region's result. -/
theorem flushed_eq (c : Dev nD) (t : Fin cfg0.N) (hf : (cfg0.win 6).flush t = true) :
    (dats m 0 c).flushed 6 t = ((cfg0.win 6).blk t).view.read (Elt Ideal) (region m c) := by
  have h3 : t.val % 4 = 3 := (flush0_6 t).mp hf
  have hN : t.val < 256 := lt_of_lt_of_eq t.isLt (show cfg0.N = 256 from N_0)
  obtain ⟨-, -, -, -, -, -, -, -, -, -, -, -, e60, e61⟩ := idx_facts t
  show (cfg0.win 6).cut (grid0.coords t) ((dats m 0 c).after 6 t) = _
  rw [after0_6]
  funext j
  obtain ⟨p, q, rfl⟩ : ∃ (p : Fin 512) (q : Fin 1024), j = ix2 p q := ⟨j 0, j 1, eq_ix2 j⟩
  show (outsAt0 m c t.val t.isLt).1 (ix2 p q) = region m c (((cfg0.win 6).blk t).view.emb (ix2 p q))
  have hp := p.isLt
  have hq := q.isLt
  rw [Invariant.out_last m c t h3 p q ⟨t.val / 16 * 512 + p.val, by omega⟩ ⟨t.val / 4 % 4 * 1024 + q.val, by omega⟩ rfl rfl]
  refine congrArg (region m c) (funext fun a => Fin.ext ?_)
  match a with
  | ⟨0, _⟩ => show t.val / 16 * 512 + p.val = win0_6.index t (0 : Fin 2) * 512 + 1 * p.val; rw [e60]; omega
  | ⟨1, _⟩ => show t.val / 4 % 4 * 1024 + q.val = win0_6.index t (1 : Fin 2) * 1024 + 1 * q.val; rw [e61]; omega

/-! ## The blocks cover the output -/

/-- An entry is in point t's block iff each coordinate is in the block's range on its axis. -/
theorem mem_blk (t : Fin cfg0.N) (i : S8192x4096.Idx) :
    i ∈ ((cfg0.win 6).blk t).view.set ↔ ∀ a : Fin 2, win0_6.index t a * S512x1024.size a ≤ (i a).val
      ∧ (i a).val < win0_6.index t a * S512x1024.size a + S512x1024.size a := by
  show i ∈ ((View.whole main_v4).slice (win0_6.rect t)).set ↔ _
  rw [View.set_slice_whole, Rect.mem_set_unit]
  exact Iff.rfl

/-- Entry (r, o) is in the block written at the last step of row block r / 512 and column block o / 1024. -/
theorem cover (i : S8192x4096.Idx) :
    ∃ t : Fin cfg0.N, (cfg0.win 6).flush t = true ∧ i ∈ ((cfg0.win 6).blk t).view.set := by
  have h0 : (i 0).val < 8192 := (i 0).isLt
  have h1 : (i 1).val < 4096 := (i 1).isLt
  have hN : cfg0.N = 256 := N_0
  obtain ⟨t, ht⟩ : ∃ t : Fin cfg0.N, t.val = (i 0).val / 512 * 16 + (i 1).val / 1024 * 4 + 3 :=
    ⟨⟨(i 0).val / 512 * 16 + (i 1).val / 1024 * 4 + 3, by rw [hN]; omega⟩, rfl⟩
  obtain ⟨-, -, -, -, -, -, -, -, -, -, -, -, e60, e61⟩ := idx_facts t
  refine ⟨t, (flush0_6 t).mpr (by omega), ?_⟩
  rw [mem_blk]
  intro a
  match a with
  | ⟨0, _⟩ =>
    show win0_6.index t (0 : Fin 2) * 512 ≤ (i 0).val ∧ (i 0).val < win0_6.index t (0 : Fin 2) * 512 + 512
    rw [e60]; omega
  | ⟨1, _⟩ =>
    show win0_6.index t (1 : Fin 2) * 1024 ≤ (i 1).val ∧ (i 1).val < win0_6.index t (1 : Fin 2) * 1024 + 1024
    rw [e61]; omega

/-- The output array after the region is the region's result. -/
theorem final6 (c : Dev nD) : (dats m 0 c).arrAt 6 cfg0.N = region m c :=
  (dats m 0 c).arrAt_eq_of_cover 6 (region m c) (flushed_eq m c) cover

/-! ## The program's result -/

/-- The result array: the region's output unflattened. -/
abbrev result (c : Dev nD) : S4x2048x4096.Idx → EReal :=
  shapeCast S4x2048x4096 (region m c) shapeCasts_S8192x4096_S4x2048x4096

/-- The one operation after the region writes the result from the region's output. -/
theorem tail_eq (c : Dev nD) :
    Pipeline.afterTail₀ cfgs (dats m) 0 (V0 m) [hostOps1] c main_v5 = result m c := by
  unfold Pipeline.afterTail₀
  show StableHlo.after hostOps1 _ (Proc.devRef .tc main_v5) = _
  after_results
  have e : Pipeline.withArrays (cfgs 0).spec c (V0 m c) (fun w => (dats m 0 c).arrAt w (cfgs 0).N)
      (Proc.devRef .tc main_v4) = region m c :=
    (Pipeline.withArrays_arr spec0 launch0.win.arr_inj c _ _ 6).trans (final6 m c)
  rw [e]
  rfl

/-- The result array is the specification's function of the six arguments. -/
theorem result_eq (c : Dev nD) :
    result m c = Spec.G (a0 m c) (a1 m c) (a2 m c) (a3 m c) (a4 m c) (a5 m c) := by
  funext i
  obtain ⟨b, s, o, rfl⟩ : ∃ (b : Fin 4) (s : Fin 2048) (o : Fin 4096), i = ix3 b s o := ⟨i 0, i 1, i 2, eq_ix3 i⟩
  have hb := b.isLt
  have hs := s.isLt
  obtain ⟨R, hR⟩ : ∃ R : Fin 8192, R.val = b.val * 2048 + s.val := ⟨⟨b.val * 2048 + s.val, by omega⟩, rfl⟩
  have e0 : result m c (ix3 b s o) = region m c (ix2 R o) := shapeCast_nc_abc_apply _ _ b s o R hR
  have eB : Spec.at2 (B2 m c) 0 o.val = (a3 m c) (ix1 o) :=
    (Spec.at2_of_lt _ _ _ (by decide) o.isLt).trans (B2_apply m c o)
  have eM : Spec.at2 (M2 m c) R.val 0 = ((((a1 m c) (ix2 b s)).toNat : ℝ) : EReal) :=
    (Spec.at2_of_lt _ _ _ R.isLt (by decide)).trans (M2_apply m c b s R hR)
  have eW : (Wm m c : S4096x4096.Idx → EReal) = (a2 m c) := V_main_arg2 m c
  have eA : (WA m c : S8x4096.Idx → EReal) = (a4 m c) := V_main_arg4 m c
  have eU : (WB m c : S4096x8.Idx → EReal) = (a5 m c) := V_main_arg5 m c
  rw [e0]
  show (Spec.pdot (X2 m c) (Wm m c) R.val o.val 4096 + Spec.at2 (B2 m c) 0 o.val)
      + Spec.at2 (M2 m c) R.val 0
        * ((∑ r : Fin 8, Spec.pdot (X2 m c) (WA m c) R.val r.val 4096 * Spec.at2 (WB m c) o.val r.val)
          * Ideal.ofBits .f32 0x40000000#32)
    = (∑ k : Fin 4096, (a0 m c) (ix3 b s k) * (a2 m c) (ix2 o k) + (a3 m c) (ix1 o))
      + Scalar.select ((a1 m c) (ix2 b s))
          ((∑ r : Fin 8, (∑ k : Fin 4096, (a0 m c) (ix3 b s k) * (a4 m c) (ix2 r k)) * (a5 m c) (ix2 o r))
            * Ideal.ofBits .f32 0x40000000#32)
          0
  rw [eB, eM, Spec.mask_mul, Spec.pdot_full (X2 m c) (Wm m c) R o]
  simp only [eW, eA, eU, Spec.pdot_full (X2 m c) (a4 m c) R, Spec.at2_val (a5 m c) o, X2_apply m c b s _ R hR] <;> rfl

/-! ## The run -/

/-- Every weakly fair execution of the program ends with the result array at the specification's function of the
    arguments and the arguments unchanged. -/
theorem run : θ_run defs (onTc (τ := τ) (main (F := Ideal))) ⟨m, fun _ => 0, ρ⟩ fun r => ∀ c : Dev nD,
      r.2.mem ((c.tc : Thread nD τ).loc main_v5)
        = Spec.G (a0 m c) (a1 m c) (a2 m c) (a3 m c) (a4 m c) (a5 m c)
      ∧ r.2.mem ((c.tc : Thread nD τ).loc main_arg0) = (m ((c.tc : Thread nD τ).loc main_arg0))
      ∧ r.2.mem ((c.tc : Thread nD τ).loc main_arg1) = (m ((c.tc : Thread nD τ).loc main_arg1))
      ∧ r.2.mem ((c.tc : Thread nD τ).loc main_arg2) = (m ((c.tc : Thread nD τ).loc main_arg2))
      ∧ r.2.mem ((c.tc : Thread nD τ).loc main_arg3) = (m ((c.tc : Thread nD τ).loc main_arg3))
      ∧ r.2.mem ((c.tc : Thread nD τ).loc main_arg4) = (m ((c.tc : Thread nD τ).loc main_arg4))
      ∧ r.2.mem ((c.tc : Thread nD τ).loc main_arg5) = (m ((c.tc : Thread nD τ).loc main_arg5)) :=
  (θ_run defs _ _).mono (fun _ h c =>
    ⟨(((h c).2 main_v5 (Pipeline.mem_restRefs_of main_v5 (by decide) (by decide))).trans (tail_eq m c)).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 1).trans (((dats m 0 c).arrAt_in 1 rfl _).trans ((A_eq m c 1).trans (V_main_arg2 m c))),
      ((h c).2 main_arg3 (Pipeline.mem_restRefs_of main_arg3 (by decide) (by decide))).trans (W_main_arg3 m (dats m) c),
      ((h c).1 2).trans (((dats m 0 c).arrAt_in 2 rfl _).trans ((A_eq m c 2).trans (V_main_arg4 m c))),
      ((h c).1 3).trans (((dats m 0 c).arrAt_in 3 rfl _).trans ((A_eq m c 3).trans (V_main_arg5 m c)))⟩)
    (run_main m ρ)

end Cert.KernelIdeal.Final

end
-- ==== Proof.RefValue.lean ====
/-
  The reference program's result is the specification's function of the six arguments.

  The reference forms the dense product and the two low-rank products each as one contraction over all 4096 (or 8)
  positions, adds the bias broadcast over tokens, doubles the low-rank term, selects it by the token's mask bit against
  zero, and adds. Reading each operation at an entry (β, s, o) and naming the entries its operands are read at gives the
  specification term for term; the only arithmetic fact used is that the zero word denotes zero.
-/
import proofs.«112531_j32607391711259_1_alg».proof.Proof.Gen.ReferenceIdeal.Read
import proofs.«112531_j32607391711259_1_alg».proof.Proof.Spec

noncomputable section

open scoped BigOperators

namespace Cert.ReferenceIdeal.RefValue

open Cert.ReferenceIdeal Cert.ReferenceIdeal.Read Idealize.ShloMosaic Idealize.ShloMosaic.ValueIdx

/-! ## Where each operation reads its operands, at entry (β, s, o) -/

theorem l0 (b : Fin 4) (s : Fin 2048) (o : Fin 4096) (k : Fin 4096) : lidx_main_v0 (ix3 b s o) k = ix3 b s k :=
  funext fun a => by
    match a with
    | ⟨0, _⟩ => rfl
    | ⟨1, _⟩ => rfl
    | ⟨2, _⟩ => rfl
theorem r0 (b : Fin 4) (s : Fin 2048) (o : Fin 4096) (k : Fin 4096) : ridx_main_v0 (ix3 b s o) k = ix2 o k :=
  funext fun a => by
    match a with
    | ⟨0, _⟩ => rfl
    | ⟨1, _⟩ => rfl
theorem i2 (b : Fin 4) (s : Fin 2048) (o : Fin 4096) : idx_main_v2 (ix3 b s o) = ix3 (0 : Fin 1) (0 : Fin 1) o :=
  funext fun a => by
    match a with
    | ⟨0, _⟩ => rfl
    | ⟨1, _⟩ => rfl
    | ⟨2, _⟩ => rfl
theorem i1 (o : Fin 4096) : idx_main_v1 (ix3 (0 : Fin 1) (0 : Fin 1) o) = ix1 o :=
  funext fun a => by
    match a with
    | ⟨0, _⟩ => rfl
theorem l5 (b : Fin 4) (s : Fin 2048) (o : Fin 4096) (r : Fin 8) : lidx_main_v5 (ix3 b s o) r = ix3 b s r :=
  funext fun a => by
    match a with
    | ⟨0, _⟩ => rfl
    | ⟨1, _⟩ => rfl
    | ⟨2, _⟩ => rfl
theorem r5 (b : Fin 4) (s : Fin 2048) (o : Fin 4096) (r : Fin 8) : ridx_main_v5 (ix3 b s o) r = ix2 o r :=
  funext fun a => by
    match a with
    | ⟨0, _⟩ => rfl
    | ⟨1, _⟩ => rfl
theorem l4 (b : Fin 4) (s : Fin 2048) (r : Fin 8) (k : Fin 4096) : lidx_main_v4 (ix3 b s r) k = ix3 b s k :=
  funext fun a => by
    match a with
    | ⟨0, _⟩ => rfl
    | ⟨1, _⟩ => rfl
    | ⟨2, _⟩ => rfl
theorem r4 (b : Fin 4) (s : Fin 2048) (r : Fin 8) (k : Fin 4096) : ridx_main_v4 (ix3 b s r) k = ix2 r k :=
  funext fun a => by
    match a with
    | ⟨0, _⟩ => rfl
    | ⟨1, _⟩ => rfl
theorem ic (b : Fin 4) (s : Fin 2048) (o : Fin 4096) : idx_main_call0_v0 (ix3 b s o) = ix3 b s (0 : Fin 1) :=
  funext fun a => by
    match a with
    | ⟨0, _⟩ => rfl
    | ⟨1, _⟩ => rfl
    | ⟨2, _⟩ => rfl
theorem i6 (b : Fin 4) (s : Fin 2048) : idx_main_v6 (ix3 b s (0 : Fin 1)) = ix2 b s :=
  funext fun a => by
    match a with
    | ⟨0, _⟩ => rfl
    | ⟨1, _⟩ => rfl

/-! ## The result -/

/-- The reference's last stage is the specification's function of the arguments. -/
theorem ref_eq (x0 : (⟨S4x2048x4096, .f32⟩ : BufTy).Contents (Elt Ideal)) (x1 : (⟨S4x2048, .i1⟩ : BufTy).Contents (Elt Ideal))
    (x2 : (⟨S4096x4096, .f32⟩ : BufTy).Contents (Elt Ideal)) (x3 : (⟨S4096, .f32⟩ : BufTy).Contents (Elt Ideal))
    (x4 : (⟨S8x4096, .f32⟩ : BufTy).Contents (Elt Ideal)) (x5 : (⟨S4096x8, .f32⟩ : BufTy).Contents (Elt Ideal)) :
    val_main_v10 (F := Ideal) x0 x1 x2 x3 x4 x5 = Spec.G x0 x1 x2 x3 x4 x5 := by
  funext i
  obtain ⟨b, s, o, rfl⟩ : ∃ (b : Fin 4) (s : Fin 2048) (o : Fin 4096), i = ix3 b s o := ⟨i 0, i 1, i 2, eq_ix3 i⟩
  rw [val_main_v10_apply, val_main_v3_apply, val_main_v0_apply, val_main_v2_apply, val_main_v1_apply,
    val_main_v9_apply, val_main_call0_v0_apply, val_main_v6_apply, val_main_v8_apply, val_main_v5_apply,
    val_main_v7_apply, val_main_cst_apply, val_main_call0_v1_apply, val_main_cst_0_apply]
  simp only [val_main_v4_apply, l0, r0, i2, i1, l5, r5, l4, r4, ic, i6, Ideal.addf_def, Ideal.mulf_def,
    Ideal.ofBits_def, Ideal.ofBits_zero_f32, Spec.G]

end Cert.ReferenceIdeal.RefValue

end
-- ==== Proof.lean ====
/-
  A low-rank adapter added to a dense layer at masked tokens: the tiled program against the plain one.

  Both programs take tokens x : [4, 2048, 4096], a token mask, dense weights W : [4096, 4096], a bias b : [4096] and
  low-rank factors A : [8, 4096] and B : [4096, 8], and return, at token (β, s) and output channel o,

      (Σ_k x[β,s,k] · W[o,k] + b[o]) + (if mask[β,s] then (Σ_ρ (Σ_k x[β,s,k] · A[ρ,k]) · B[o,ρ]) · 2 else 0).

  The plain program forms each sum in one contraction. The tiled program flattens the tokens to 8192 rows and walks a
  16 × 4 × 4 grid of blocks (512 token rows, 1024 output channels, 1024 positions of the contraction axis at a time),
  keeping a running total of the dense product and one of the low-rank product across the four steps along the
  contraction axis; on the last step it applies the second low-rank factor, adds the bias, and multiplies the doubled
  low-rank term by the mask bit read as the number 0 or 1.

  On the extended reals the two agree for every input. The running totals are the dot products over the columns seen so
  far (by induction on the grid point), so after the last step they are the whole sums, whatever the grouping: addition
  of extended reals is associative and commutative. Multiplying by the mask number is selecting, since 0 · v = 0 and
  1 · v = v for every extended real v. Changing a block's float format is the identity there. No entry needs to be finite.

  Modules: Spec (the function and the laws), Pieces (what each case of the body leaves in the buffers it writes),
  Payload (the body's values at an entry), Blocks (which entries each block is; the arrays the region is launched on),
  Invariant (the totals after each grid point), Final (the output array, the result, the run), RefValue (the plain
  program's result). The frames of all three programs and the run of the plain program are the generated ones.
-/
import proofs.«112531_j32607391711259_1_alg».proof.Defs
import proofs.«112531_j32607391711259_1_alg».proof.Proof.Gen.Kernel
import proofs.«112531_j32607391711259_1_alg».proof.Proof.Gen.Kernel.Skeleton
import proofs.«112531_j32607391711259_1_alg».proof.Proof.Gen.Kernel.Launch
import proofs.«112531_j32607391711259_1_alg».proof.Proof.Gen.Kernel.Points
import proofs.«112531_j32607391711259_1_alg».proof.Proof.Gen.Kernel.Frame
import proofs.«112531_j32607391711259_1_alg».proof.Proof.Gen.KernelIdeal
import proofs.«112531_j32607391711259_1_alg».proof.Proof.Gen.KernelIdeal.Skeleton
import proofs.«112531_j32607391711259_1_alg».proof.Proof.Gen.KernelIdeal.Launch
import proofs.«112531_j32607391711259_1_alg».proof.Proof.Gen.KernelIdeal.Points
import proofs.«112531_j32607391711259_1_alg».proof.Proof.Gen.KernelIdeal.Frame
import proofs.«112531_j32607391711259_1_alg».proof.Proof.Gen.ReferenceIdeal
import proofs.«112531_j32607391711259_1_alg».proof.Proof.Gen.ReferenceIdeal.Run
import proofs.«112531_j32607391711259_1_alg».proof.Proof.Gen.ReferenceIdeal.Read
import proofs.«112531_j32607391711259_1_alg».proof.Proof.Gen.Pre_finite_inputs
import proofs.«112531_j32607391711259_1_alg».proof.Proof.Final
import proofs.«112531_j32607391711259_1_alg».proof.Proof.RefValue
import Idealize.ShloMosaic.Adequacy
import Idealize.ShloMosaic.Init

noncomputable section

namespace Cert.Proof

open Idealize.ShloMosaic Idealize.ShloMosaic.TcCoe Idealize.SL.Sem

/-- The tiled program, read on machine words, runs and leaves its arguments unchanged. -/
theorem frame_k : Cert.frame_Kernel := fun m ρ _ => Cert.Kernel.Gen.frame m ρ

/-- The tiled program, read on the extended reals, runs and leaves its arguments unchanged. -/
theorem frame_ki : Cert.frame_KernelIdeal := fun m ρ _ => Cert.KernelIdeal.Gen.frame m ρ

/-- The plain program runs and leaves its arguments unchanged: its run with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- Reading the tiled program on the extended reals rewrote none of its operations. -/
theorem preserves : Cert.preserves_Kernel_KernelIdeal := trivial

/-- From memories that agree on the six arguments both programs end with the same result array: the specification's
    function of the arguments. -/
theorem algebraic : Cert.algebraic_KernelIdeal_ReferenceIdeal := by
  intro m ρ m' ρ' _ hagree
  refine ⟨fun c => Cert.Spec.G (Cert.KernelIdeal.Final.a0 m c) (Cert.KernelIdeal.Final.a1 m c) (Cert.KernelIdeal.Final.a2 m c) (Cert.KernelIdeal.Final.a3 m c) (Cert.KernelIdeal.Final.a4 m c) (Cert.KernelIdeal.Final.a5 m c),
    Cert.KernelIdeal.Final.run m ρ, ?_⟩
  refine (θ_run Cert.ReferenceIdeal.defs _ _).mono (fun _ h c => ⟨?_, (h c).2⟩)
    (Cert.ReferenceIdeal.Value.run (F := Ideal) m' ρ')
  have e := (h c).1
  rw [Cert.ReferenceIdeal.Read.val_main_v10_eq, Cert.ReferenceIdeal.RefValue.ref_eq, (hagree c).1, (hagree c).2.1,
    (hagree c).2.2.1, (hagree c).2.2.2.1, (hagree c).2.2.2.2.1, (hagree c).2.2.2.2.2] at e
  exact e

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
